-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v19_0)) (v1 : (c : Dev Cert.KernelIdeal.nD) → Buf (Elt Ideal) ((c.tc : Thread Cert.KernelIdeal.nD Cert.KernelIdeal.τ).loc Cert.KernelIdeal.main_v19_1)) (v2 : (c : Dev Cert.KernelIdeal.nD) → Buf (Elt Ideal) ((c.tc : Thread Cert.KernelIdeal.nD Cert.KernelIdeal.τ).loc Cert.KernelIdeal.main_v19_2)) (v3 : (c : Dev Cert.KernelIdeal.nD) → Buf (Elt Ideal) ((c.tc : Thread Cert.KernelIdeal.nD Cert.KernelIdeal.τ).loc Cert.KernelIdeal.main_v39_0)) (v4 : (c : Dev Cert.KernelIdeal.nD) → Buf (Elt Ideal) ((c.tc : Thread Cert.KernelIdeal.nD Cert.KernelIdeal.τ).loc Cert.KernelIdeal.main_v39_1)) (v5 : (c : Dev Cert.KernelIdeal.nD) → Buf (Elt Ideal) ((c.tc : Thread Cert.KernelIdeal.nD Cert.KernelIdeal.τ).loc Cert.KernelIdeal.main_v39_2)) (v6 : (c : Dev Cert.KernelIdeal.nD) → Buf (Elt Ideal) ((c.tc : Thread Cert.KernelIdeal.nD Cert.KernelIdeal.τ).loc Cert.KernelIdeal.main_v42)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v19_0) = v0 c
          ∧ r.2.mem ((c.tc : Thread Cert.KernelIdeal.nD Cert.KernelIdeal.τ).loc Cert.KernelIdeal.main_v19_1) = v1 c
          ∧ r.2.mem ((c.tc : Thread Cert.KernelIdeal.nD Cert.KernelIdeal.τ).loc Cert.KernelIdeal.main_v19_2) = v2 c
          ∧ r.2.mem ((c.tc : Thread Cert.KernelIdeal.nD Cert.KernelIdeal.τ).loc Cert.KernelIdeal.main_v39_0) = v3 c
          ∧ r.2.mem ((c.tc : Thread Cert.KernelIdeal.nD Cert.KernelIdeal.τ).loc Cert.KernelIdeal.main_v39_1) = v4 c
          ∧ r.2.mem ((c.tc : Thread Cert.KernelIdeal.nD Cert.KernelIdeal.τ).loc Cert.KernelIdeal.main_v39_2) = v5 c
          ∧ r.2.mem ((c.tc : Thread Cert.KernelIdeal.nD Cert.KernelIdeal.τ).loc Cert.KernelIdeal.main_v42) = v6 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v33) = v0 c
          ∧ r.2.mem ((c.tc : Thread Cert.ReferenceIdeal.nD Cert.ReferenceIdeal.τ).loc Cert.ReferenceIdeal.main_v34) = v1 c
          ∧ r.2.mem ((c.tc : Thread Cert.ReferenceIdeal.nD Cert.ReferenceIdeal.τ).loc Cert.ReferenceIdeal.main_v38) = v2 c
          ∧ r.2.mem ((c.tc : Thread Cert.ReferenceIdeal.nD Cert.ReferenceIdeal.τ).loc Cert.ReferenceIdeal.main_v72) = v3 c
          ∧ r.2.mem ((c.tc : Thread Cert.ReferenceIdeal.nD Cert.ReferenceIdeal.τ).loc Cert.ReferenceIdeal.main_v73) = v4 c
          ∧ r.2.mem ((c.tc : Thread Cert.ReferenceIdeal.nD Cert.ReferenceIdeal.τ).loc Cert.ReferenceIdeal.main_v77) = v5 c
          ∧ r.2.mem ((c.tc : Thread Cert.ReferenceIdeal.nD Cert.ReferenceIdeal.τ).loc Cert.ReferenceIdeal.main_v80) = v6 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x2048 : Shape := ⟨2, ![1024, 2048]⟩
abbrev S8192x2048 : Shape := ⟨2, ![8192, 2048]⟩
abbrev S_ : Shape := ⟨0, ![]⟩

class Facts : Prop where
  bcast_S_S1024x2048 : S_.BroadcastsInDim S1024x2048 (![] : Fin 0 → Fin S1024x2048.rank)
  reducesTo_S1024x2048_S_d0_1 : S1024x2048.ReducesTo [0, 1] S_
  h_S_ : 0 < S_.numel
  bcast_S_S8192x2048 : S_.BroadcastsInDim S8192x2048 (![] : Fin 0 → Fin S8192x2048.rank)
  reducesTo_S8192x2048_S_d0_1 : S8192x2048.ReducesTo [0, 1] S_

variable [Facts]

def fn_part1 {F : FTy → Type} [FloatOps F] (main_v13 : IVec S_ 1) (main_v16 : IVec S8192x2048 1) : IVec S_ 1 :=
  let main_c_5 : IVec S_ 1 := constantI S_ 1 1#1
  let main_v17 : IVec S_ 1 := (fun x v => Host.reduce IntOp.andi x v reducesTo_S8192x2048_S_d0_1 h_S_) main_v16 main_c_5
  let main_v18 : IVec S_ 1 := andi main_v13 main_v17
  main_v18

def fn {F : FTy → Type} [FloatOps F] (main_arg0 : FVec F S1024x2048 .f32) (main_arg1 : FVec F S1024x2048 .f32) (main_arg2 : FVec F S8192x2048 .f32) (main_arg3 : FVec F S8192x2048 .f32) : IVec S_ 1 :=
  let main_v0 : FVec F S1024x2048 .f32 := Host.absf main_arg0
  let main_cst : FVec F S_ .f32 := constant S_ .f32 0x7F800000#32
  let main_v1 : FVec F S1024x2048 .f32 := broadcastInDim S1024x2048 ![] bcast_S_S1024x2048 main_cst
  let main_v2 : IVec S1024x2048 1 := cmpf .olt main_v0 main_v1
  let main_c : IVec S_ 1 := constantI S_ 1 1#1
  let main_v3 : IVec S_ 1 := (fun x v => Host.reduce IntOp.andi x v reducesTo_S1024x2048_S_d0_1 h_S_) main_v2 main_c
  let main_v4 : FVec F S1024x2048 .f32 := Host.absf main_arg1
  let main_cst_0 : FVec F S_ .f32 := constant S_ .f32 0x7F800000#32
  let main_v5 : FVec F S1024x2048 .f32 := broadcastInDim S1024x2048 ![] bcast_S_S1024x2048 main_cst_0
  let main_v6 : IVec S1024x2048 1 := cmpf .olt main_v4 main_v5
  let main_c_1 : IVec S_ 1 := constantI S_ 1 1#1
  let main_v7 : IVec S_ 1 := (fun x v => Host.reduce IntOp.andi x v reducesTo_S1024x2048_S_d0_1 h_S_) main_v6 main_c_1
  let main_v8 : IVec S_ 1 := andi main_v3 main_v7
  let main_v9 : FVec F S8192x2048 .f32 := Host.absf main_arg2
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_c_3 : IVec S_ 1 := constantI S_ 1 1#1
  let main_v12 : IVec S_ 1 := (fun x v => Host.reduce IntOp.andi x v reducesTo_S8192x2048_S_d0_1 h_S_) main_v11 main_c_3
  let main_v13 : IVec S_ 1 := andi main_v8 main_v12
  let main_v14 : FVec F S8192x2048 .f32 := Host.absf main_arg3
  let main_cst_4 : FVec F S_ .f32 := constant S_ .f32 0x7F800000#32
  let main_v15 : FVec F S8192x2048 .f32 := broadcastInDim S8192x2048 ![] bcast_S_S8192x2048 main_cst_4
  let main_v16 : IVec S8192x2048 1 := cmpf .olt main_v14 main_v15
  fn_part1 (F := F) main_v13 main_v16
-- ==== Kernel.lean ====
abbrev S1024x2048 : Shape := ⟨2, ![1024, 2048]⟩
abbrev S8192x2048 : Shape := ⟨2, ![8192, 2048]⟩
abbrev S_ : Shape := ⟨0, ![]⟩
abbrev S1024 : Shape := ⟨1, ![1024]⟩
abbrev S1x1024 : Shape := ⟨2, ![1, 1024]⟩
abbrev S8192 : Shape := ⟨1, ![8192]⟩
abbrev S8192x1 : Shape := ⟨2, ![8192, 1]⟩
abbrev S8192x1024 : Shape := ⟨2, ![8192, 1024]⟩
abbrev S512x2048 : Shape := ⟨2, ![512, 2048]⟩
abbrev S512x1 : Shape := ⟨2, ![512, 1]⟩
abbrev S512x1024 : Shape := ⟨2, ![512, 1024]⟩
abbrev S512 : Shape := ⟨1, ![512]⟩

abbrev nBuf : Space → Nat
  | .hbm => 65
  | .vmem => 24
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S8192x2048, .f32⟩
  | .hbm, ⟨3, _⟩ => ⟨S8192x2048, .f32⟩
  | .hbm, ⟨4, _⟩ => ⟨S1024x2048, .bf16⟩
  | .hbm, ⟨5, _⟩ => ⟨S8192x2048, .bf16⟩
  | .hbm, ⟨6, _⟩ => ⟨S1024x2048, .f32⟩
  | .hbm, ⟨7, _⟩ => ⟨S_, .f32⟩
  | .hbm, ⟨8, _⟩ => ⟨S1024, .f32⟩
  | .hbm, ⟨9, _⟩ => ⟨S_, .f32⟩
  | .hbm, ⟨10, _⟩ => ⟨S1024, .f32⟩
  | .hbm, ⟨11, _⟩ => ⟨S_, .f32⟩
  | .hbm, ⟨12, _⟩ => ⟨S1024, .f32⟩
  | .hbm, ⟨13, _⟩ => ⟨S1024, .f32⟩
  | .hbm, ⟨14, _⟩ => ⟨S1024, .f32⟩
  | .hbm, ⟨15, _⟩ => ⟨S_, .f32⟩
  | .hbm, ⟨16, _⟩ => ⟨S1024, .f32⟩
  | .hbm, ⟨17, _⟩ => ⟨S1024, .f32⟩
  | .hbm, ⟨18, _⟩ => ⟨S1x1024, .f32⟩
  | .hbm, ⟨19, _⟩ => ⟨S8192x2048, .f32⟩
  | .hbm, ⟨20, _⟩ => ⟨S_, .f32⟩
  | .hbm, ⟨21, _⟩ => ⟨S8192, .f32⟩
  | .hbm, ⟨22, _⟩ => ⟨S8192x1, .f32⟩
  | .hbm, ⟨23, _⟩ => ⟨S_, .f32⟩
  | .hbm, ⟨24, _⟩ => ⟨S8192, .f32⟩
  | .hbm, ⟨25, _⟩ => ⟨S8192x1, .f32⟩
  | .hbm, ⟨26, _⟩ => ⟨S_, .f32⟩
  | .hbm, ⟨27, _⟩ => ⟨S8192x1, .f32⟩
  | .hbm, ⟨28, _⟩ => ⟨S8192x1, .f32⟩
  | .hbm, ⟨29, _⟩ => ⟨S8192x1, .f32⟩
  | .hbm, ⟨30, _⟩ => ⟨S8192x1024, .f32⟩
  | .hbm, ⟨31, _⟩ => ⟨S8192, .f32⟩
  | .hbm, ⟨32, _⟩ => ⟨S8192, .f32⟩
  | .hbm, ⟨33, _⟩ => ⟨S1024x2048, .bf16⟩
  | .hbm, ⟨34, _⟩ => ⟨S8192x2048, .bf16⟩
  | .hbm, ⟨35, _⟩ => ⟨S1024x2048, .f32⟩
  | .hbm, ⟨36, _⟩ => ⟨S_, .f32⟩
  | .hbm, ⟨37, _⟩ => ⟨S1024, .f32⟩
  | .hbm, ⟨38, _⟩ => ⟨S_, .f32⟩
  | .hbm, ⟨39, _⟩ => ⟨S1024, .f32⟩
  | .hbm, ⟨40, _⟩ => ⟨S_, .f32⟩
  | .hbm, ⟨41, _⟩ => ⟨S1024, .f32⟩
  | .hbm, ⟨42, _⟩ => ⟨S1024, .f32⟩
  | .hbm, ⟨43, _⟩ => ⟨S1024, .f32⟩
  | .hbm, ⟨44, _⟩ => ⟨S_, .f32⟩
  | .hbm, ⟨45, _⟩ => ⟨S1024, .f32⟩
  | .hbm, ⟨46, _⟩ => ⟨S1024, .f32⟩
  | .hbm, ⟨47, _⟩ => ⟨S1x1024, .f32⟩
  | .hbm, ⟨48, _⟩ => ⟨S8192x2048, .f32⟩
  | .hbm, ⟨49, _⟩ => ⟨S_, .f32⟩
  | .hbm, ⟨50, _⟩ => ⟨S8192, .f32⟩
  | .hbm, ⟨51, _⟩ => ⟨S8192x1, .f32⟩
  | .hbm, ⟨52, _⟩ => ⟨S_, .f32⟩
  | .hbm, ⟨53, _⟩ => ⟨S8192, .f32⟩
  | .hbm, ⟨54, _⟩ => ⟨S8192x1, .f32⟩
  | .hbm, ⟨55, _⟩ => ⟨S_, .f32⟩
  | .hbm, ⟨56, _⟩ => ⟨S8192x1, .f32⟩
  | .hbm, ⟨57, _⟩ => ⟨S8192x1, .f32⟩
  | .hbm, ⟨58, _⟩ => ⟨S8192x1, .f32⟩
  | .hbm, ⟨59, _⟩ => ⟨S8192x1024, .f32⟩
  | .hbm, ⟨60, _⟩ => ⟨S8192, .f32⟩
  | .hbm, ⟨61, _⟩ => ⟨S8192, .f32⟩
  | .hbm, ⟨62, _⟩ => ⟨S8192, .i1⟩
  | .hbm, ⟨63, _⟩ => ⟨S8192, .i1⟩
  | .hbm, ⟨64, _⟩ => ⟨S8192, .i1⟩
  | .local _ .vmem, ⟨0, _⟩ => ⟨S512x2048, .bf16⟩
  | .local _ .vmem, ⟨1, _⟩ => ⟨S512x2048, .bf16⟩
  | .local _ .vmem, ⟨2, _⟩ => ⟨S512x1, .f32⟩
  | .local _ .vmem, ⟨3, _⟩ => ⟨S512x1, .f32⟩
  | .local _ .vmem, ⟨4, _⟩ => ⟨S1024x2048, .bf16⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | .local _ .vmem, ⟨8, _⟩ => ⟨S512, .f32⟩
  | .local _ .vmem, ⟨9, _⟩ => ⟨S512, .f32⟩
  | .local _ .vmem, ⟨10, _⟩ => ⟨S512, .f32⟩
  | .local _ .vmem, ⟨11, _⟩ => ⟨S512, .f32⟩
  | .local _ .vmem, ⟨12, _⟩ => ⟨S512x2048, .bf16⟩
  | .local _ .vmem, ⟨13, _⟩ => ⟨S512x2048, .bf16⟩
  | .local _ .vmem, ⟨14, _⟩ => ⟨S512x1, .f32⟩
  | .local _ .vmem, ⟨15, _⟩ => ⟨S512x1, .f32⟩
  | .local _ .vmem, ⟨16, _⟩ => ⟨S1024x2048, .bf16⟩
  | .local _ .vmem, ⟨17, _⟩ => ⟨S1x1024, .f32⟩
  | .local _ .vmem, ⟨18, _⟩ => ⟨S512x1024, .f32⟩
  | .local _ .vmem, ⟨19, _⟩ => ⟨S512x1024, .f32⟩
  | .local _ .vmem, ⟨20, _⟩ => ⟨S512, .f32⟩
  | .local _ .vmem, ⟨21, _⟩ => ⟨S512, .f32⟩
  | .local _ .vmem, ⟨22, _⟩ => ⟨S512, .f32⟩
  | .local _ .vmem, ⟨23, _⟩ => ⟨S512, .f32⟩
  | _, _ => ⟨S1024x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_cst : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_3 : Ref sig .tc := ⟨.hbm, 20, rfl⟩
abbrev main_v12 : Ref sig .tc := ⟨.hbm, 21, rfl⟩
abbrev main_v13 : Ref sig .tc := ⟨.hbm, 22, rfl⟩
abbrev main_cst_4 : Ref sig .tc := ⟨.hbm, 23, rfl⟩
abbrev main_v14 : Ref sig .tc := ⟨.hbm, 24, rfl⟩
abbrev main_v15 : Ref sig .tc := ⟨.hbm, 25, rfl⟩
abbrev main_cst_5 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19_0 : Ref sig .tc := ⟨.hbm, 30, rfl⟩
abbrev main_v19_1 : Ref sig .tc := ⟨.hbm, 31, rfl⟩
abbrev main_v19_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_6 : Ref sig .tc := ⟨.hbm, 36, rfl⟩
abbrev main_v23 : Ref sig .tc := ⟨.hbm, 37, rfl⟩
abbrev main_cst_7 : Ref sig .tc := ⟨.hbm, 38, rfl⟩
abbrev main_v24 : Ref sig .tc := ⟨.hbm, 39, rfl⟩
abbrev main_cst_8 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_cst_9 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_cst_10 : Ref sig .tc := ⟨.hbm, 49, rfl⟩
abbrev main_v32 : Ref sig .tc := ⟨.hbm, 50, rfl⟩
abbrev main_v33 : Ref sig .tc := ⟨.hbm, 51, rfl⟩
abbrev main_cst_11 : Ref sig .tc := ⟨.hbm, 52, rfl⟩
abbrev main_v34 : Ref sig .tc := ⟨.hbm, 53, rfl⟩
abbrev main_v35 : Ref sig .tc := ⟨.hbm, 54, rfl⟩
abbrev main_cst_12 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39_0 : Ref sig .tc := ⟨.hbm, 59, rfl⟩
abbrev main_v39_1 : Ref sig .tc := ⟨.hbm, 60, rfl⟩
abbrev main_v39_2 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg4_0 : Ref sig .tc := ⟨.vmem, 18, rfl⟩
abbrev cc1_stg4_1 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem4_1 : DmaSem sig := 19
abbrev cc1_sem5_0 : DmaSem sig := 20
abbrev cc1_sem5_1 : DmaSem sig := 21
abbrev cc1_sem6_0 : DmaSem sig := 22
abbrev cc1_sem6_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 1 → Nat :=
  let arg0 : BitVec 32 := BitVec.ofNat 32 (i 0).val
  let c0_i32 : BitVec 32 := 0#32
  ![arg0.toNat]

def cc0_transform_6 (i : grid0.Coords) : Fin 1 → Nat :=
  let arg0 : BitVec 32 := BitVec.ofNat 32 (i 0).val
  let c0_i32 : BitVec 32 := 0#32
  ![arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1024x2048 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_5 (i : grid1.Coords) : Fin 1 → Nat :=
  let arg0 : BitVec 32 := BitVec.ofNat 32 (i 0).val
  let c0_i32 : BitVec 32 := 0#32
  ![arg0.toNat]

def cc1_transform_6 (i : grid1.Coords) : Fin 1 → Nat :=
  let arg0 : BitVec 32 := BitVec.ofNat 32 (i 0).val
  let c0_i32 : BitVec 32 := 0#32
  ![arg0.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1024x2048 .bf16 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x1024 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S512 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S512 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

class Facts₀ : Prop where
  bitsLt_bf16_f32 : FTy.bits .bf16 < FTy.bits .f32
  reducesTo_S1024x2048_S1024_d1 : S1024x2048.ReducesTo [1] S1024
  h_S_ : 0 < S_.numel
  bcast_S_S1024 : S_.BroadcastsInDim S1024 (![] : Fin 0 → Fin S1024.rank)
  shapeCasts_S1024_S1x1024 : S1024.ShapeCasts S1x1024
  reducesTo_S8192x2048_S8192_d1 : S8192x2048.ReducesTo [1] S8192
  bcast_S8192_S8192x1_0 : S8192.BroadcastsInDim S8192x1 (![0] : Fin 1 → Fin S8192x1.rank)
  bcast_S_S8192x1 : S_.BroadcastsInDim S8192x1 (![] : Fin 0 → Fin S8192x1.rank)
  inb_S512x2048_S512x2048_0_0 : ∀ a, (![0, 0] : Fin 2 → Nat) a + S512x2048.size a ≤ S512x2048.size a
  h_S512x2048 : 0 < S512x2048.numel
  shapeCasts_S512x2048_S512x2048 : S512x2048.ShapeCasts S512x2048
  inb_S1024x2048_S1024x2048_0_0 : ∀ a, (![0, 0] : Fin 2 → Nat) a + S1024x2048.size a ≤ S1024x2048.size a
  h_S1024x2048 : 0 < S1024x2048.numel
  shapeCasts_S1024x2048_S1024x2048 : S1024x2048.ShapeCasts S1024x2048
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S512x1_S512x1024 : S512x1.Broadcasts S512x1024
  broadcasts_S1x1024_S512x1024 : S1x1024.Broadcasts S512x1024
  reduces_S512x1024_S512 : S512x1024.Reduces [1] S512
  shapeCasts_S512_S512x1 : S512.ShapeCasts S512x1
  inb_S512_S512_0 : ∀ a, (![0] : Fin 1 → Nat) a + S512.size a ≤ S512.size a
  h_S512 : 0 < S512.numel
  shapeCasts_S512x1_S512 : S512x1.ShapeCasts S512
  inb_S512x1024_S512x1024_0_0 : ∀ a, (![0, 0] : Fin 2 → Nat) a + S512x1024.size a ≤ S512x1024.size a
  h_S512x1024 : 0 < S512x1024.numel
  dot_S512x2048_S1024x2048_S512x1024_1_1_0_0_n_n_wf : DotDims.WF S512x2048 S1024x2048 S512x1024 [1] [1] [0] [0] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x2048.size a ≤ S8192x2048.size a
  hwx0_0 : ∀ i : grid0.Coords, EltTy.bits .bf16 = 32 ∨ (Rect.block (s := S8192x2048) S512x2048.size (cc0_transform_0 i) (hinb0_0 i)).WholeWords (EltTy.packing .bf16)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S8192x1.size a
  hwx0_1 : ∀ i : grid0.Coords, EltTy.bits .f32 = 32 ∨ (Rect.block (s := S8192x1) S512x1.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1024x2048.size a ≤ S1024x2048.size a
  hwx0_2 : ∀ i : grid0.Coords, EltTy.bits .bf16 = 32 ∨ (Rect.block (s := S1024x2048) S1024x2048.size (cc0_transform_2 i) (hinb0_2 i)).WholeWords (EltTy.packing .bf16)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x1024.size a ≤ S1x1024.size a
  hwx0_3 : ∀ i : grid0.Coords, EltTy.bits .f32 = 32 ∨ (Rect.block (s := S1x1024) S1x1024.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1024.size a ≤ S8192x1024.size a
  hwx0_4 : ∀ i : grid0.Coords, EltTy.bits .f32 = 32 ∨ (Rect.block (s := S8192x1024) S512x1024.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512.size a ≤ S8192.size a
  hwx0_5 : ∀ i : grid0.Coords, EltTy.bits .f32 = 32 ∨ (Rect.block (s := S8192) S512.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S512.size a ≤ S8192.size a
  hwx0_6 : ∀ i : grid0.Coords, EltTy.bits .f32 = 32 ∨ (Rect.block (s := S8192) S512.size (cc0_transform_6 i) (hinb0_6 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x2048.size a ≤ S8192x2048.size a
  hwx1_0 : ∀ i : grid1.Coords, EltTy.bits .bf16 = 32 ∨ (Rect.block (s := S8192x2048) S512x2048.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x1.size a ≤ S8192x1.size a
  hwx1_1 : ∀ i : grid1.Coords, EltTy.bits .f32 = 32 ∨ (Rect.block (s := S8192x1) S512x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1024x2048.size a ≤ S1024x2048.size a
  hwx1_2 : ∀ i : grid1.Coords, EltTy.bits .bf16 = 32 ∨ (Rect.block (s := S1024x2048) S1024x2048.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x1024.size a ≤ S1x1024.size a
  hwx1_3 : ∀ i : grid1.Coords, EltTy.bits .f32 = 32 ∨ (Rect.block (s := S1x1024) S1x1024.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S512x1024.size a ≤ S8192x1024.size a
  hwx1_4 : ∀ i : grid1.Coords, EltTy.bits .f32 = 32 ∨ (Rect.block (s := S8192x1024) S512x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S512.size a ≤ S8192.size a
  hwx1_5 : ∀ i : grid1.Coords, EltTy.bits .f32 = 32 ∨ (Rect.block (s := S8192) S512.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S512.size a ≤ S8192.size a
  hwx1_6 : ∀ i : grid1.Coords, EltTy.bits .f32 = 32 ∨ (Rect.block (s := S8192) S512.size (cc1_transform_6 i) (hinb1_6 i)).WholeWords (EltTy.packing .f32)

variable [Facts₀]

def dot_S512x2048_S1024x2048_S512x1024_1_1_0_0_n_n : DotDims S512x2048 S1024x2048 S512x1024 where
  lhsContracting := [1]
  rhsContracting := [1]
  lhsNonContracting := [0]
  rhsNonContracting := [0]
  lhsBatch := []
  rhsBatch := []
  wf := dot_S512x2048_S1024x2048_S512x1024_1_1_0_0_n_n_wf

abbrev win0_0 : Pipeline.Window sig grid0 :=
  Pipeline.Window.ofSpec (Memref.whole main_v1) S512x2048.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v18) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1024x2048.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S1x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v19_0) S512x1024.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v19_1) S512.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v19_2) S512.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

abbrev win1_0 : Pipeline.Window sig grid1 :=
  Pipeline.Window.ofSpec (Memref.whole main_v21) S512x2048.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v38) S512x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v20) S1024x2048.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v30) S1x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v39_0) S512x1024.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v39_1) S512.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v39_2) S512.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

class Facts : Prop extends Facts₀ where

variable [Facts]
-- ==== ReferenceIdeal.lean ====
abbrev S1024x2048 : Shape := ⟨2, ![1024, 2048]⟩
abbrev S8192x2048 : Shape := ⟨2, ![8192, 2048]⟩
abbrev S_ : Shape := ⟨0, ![]⟩
abbrev S8192 : Shape := ⟨1, ![8192]⟩
abbrev S8192x1 : Shape := ⟨2, ![8192, 1]⟩
abbrev S1024 : Shape := ⟨1, ![1024]⟩
abbrev S8192x1024 : Shape := ⟨2, ![8192, 1024]⟩
abbrev S1x1024 : Shape := ⟨2, ![1, 1024]⟩

abbrev nBuf : Space → Nat
  | .hbm => 107
  | .vmem => 0
  | .smem => 0
  | _ => 0

abbrev bufTy : (tb : Table) → Fin (tcTables nBuf tb) → BufTy
  | .hbm, ⟨0, _⟩ => ⟨S1024x2048, .f32⟩
  | .hbm, ⟨1, _⟩ => ⟨S1024x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S_, .f32⟩
  | .hbm, ⟨6, _⟩ => ⟨S8192, .f32⟩
  | .hbm, ⟨7, _⟩ => ⟨S8192x1, .f32⟩
  | .hbm, ⟨8, _⟩ => ⟨S1024x2048, .f32⟩
  | .hbm, ⟨9, _⟩ => ⟨S_, .f32⟩
  | .hbm, ⟨10, _⟩ => ⟨S1024, .f32⟩
  | .hbm, ⟨11, _⟩ => ⟨S8192x1024, .f32⟩
  | .hbm, ⟨12, _⟩ => ⟨S_, .f32⟩
  | .hbm, ⟨13, _⟩ => ⟨S8192, .f32⟩
  | .hbm, ⟨14, _⟩ => ⟨S8192x1, .f32⟩
  | .hbm, ⟨15, _⟩ => ⟨S_, .f32⟩
  | .hbm, ⟨16, _⟩ => ⟨S1024, .f32⟩
  | .hbm, ⟨17, _⟩ => ⟨S1x1024, .f32⟩
  | .hbm, ⟨18, _⟩ => ⟨S8192x1024, .f32⟩
  | .hbm, ⟨19, _⟩ => ⟨S8192x1024, .f32⟩
  | .hbm, ⟨20, _⟩ => ⟨S8192x1024, .f32⟩
  | .hbm, ⟨21, _⟩ => ⟨S_, .f32⟩
  | .hbm, ⟨22, _⟩ => ⟨S8192x1024, .f32⟩
  | .hbm, ⟨23, _⟩ => ⟨S8192x1024, .f32⟩
  | .hbm, ⟨24, _⟩ => ⟨S_, .f32⟩
  | .hbm, ⟨25, _⟩ => ⟨S8192x1024, .f32⟩
  | .hbm, ⟨26, _⟩ => ⟨S8192x1024, .f32⟩
  | .hbm, ⟨27, _⟩ => ⟨S1x1024, .f32⟩
  | .hbm, ⟨28, _⟩ => ⟨S8192x1024, .f32⟩
  | .hbm, ⟨29, _⟩ => ⟨S8192x1024, .f32⟩
  | .hbm, ⟨30, _⟩ => ⟨S8192x1024, .f32⟩
  | .hbm, ⟨31, _⟩ => ⟨S_, .f32⟩
  | .hbm, ⟨32, _⟩ => ⟨S8192x1024, .f32⟩
  | .hbm, ⟨33, _⟩ => ⟨S8192x1024, .f32⟩
  | .hbm, ⟨34, _⟩ => ⟨S8192x1024, .f32⟩
  | .hbm, ⟨35, _⟩ => ⟨S8192x1024, .f32⟩
  | .hbm, ⟨36, _⟩ => ⟨S_, .f32⟩
  | .hbm, ⟨37, _⟩ => ⟨S8192x1024, .f32⟩
  | .hbm, ⟨38, _⟩ => ⟨S8192x1024, .f32⟩
  | .hbm, ⟨39, _⟩ => ⟨S8192x1024, .f32⟩
  | .hbm, ⟨40, _⟩ => ⟨S8192x1024, .f32⟩
  | .hbm, ⟨41, _⟩ => ⟨S8192x1024, .f32⟩
  | .hbm, ⟨42, _⟩ => ⟨S_, .f32⟩
  | .hbm, ⟨43, _⟩ => ⟨S8192, .f32⟩
  | .hbm, ⟨44, _⟩ => ⟨S8192x1, .f32⟩
  | .hbm, ⟨45, _⟩ => ⟨S8192x1024, .f32⟩
  | .hbm, ⟨46, _⟩ => ⟨S8192x1024, .f32⟩
  | .hbm, ⟨47, _⟩ => ⟨S_, .f32⟩
  | .hbm, ⟨48, _⟩ => ⟨S8192, .f32⟩
  | .hbm, ⟨49, _⟩ => ⟨S8192x1024, .f32⟩
  | .hbm, ⟨50, _⟩ => ⟨S8192x1024, .f32⟩
  | .hbm, ⟨51, _⟩ => ⟨S_, .f32⟩
  | .hbm, ⟨52, _⟩ => ⟨S8192, .f32⟩
  | .hbm, ⟨53, _⟩ => ⟨S8192, .f32⟩
  | .hbm, ⟨54, _⟩ => ⟨S8192x2048, .f32⟩
  | .hbm, ⟨55, _⟩ => ⟨S_, .f32⟩
  | .hbm, ⟨56, _⟩ => ⟨S8192, .f32⟩
  | .hbm, ⟨57, _⟩ => ⟨S8192x1, .f32⟩
  | .hbm, ⟨58, _⟩ => ⟨S1024x2048, .f32⟩
  | .hbm, ⟨59, _⟩ => ⟨S_, .f32⟩
  | .hbm, ⟨60, _⟩ => ⟨S1024, .f32⟩
  | .hbm, ⟨61, _⟩ => ⟨S8192x1024, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S8192x1024, .f32⟩
  | .hbm, ⟨69, _⟩ => ⟨S8192x1024, .f32⟩
  | .hbm, ⟨70, _⟩ => ⟨S8192x1024, .f32⟩
  | .hbm, ⟨71, _⟩ => ⟨S_, .f32⟩
  | .hbm, ⟨72, _⟩ => ⟨S8192x1024, .f32⟩
  | .hbm, ⟨73, _⟩ => ⟨S8192x1024, .f32⟩
  | .hbm, ⟨74, _⟩ => ⟨S_, .f32⟩
  | .hbm, ⟨75, _⟩ => ⟨S8192x1024, .f32⟩
  | .hbm, ⟨76, _⟩ => ⟨S8192x1024, .f32⟩
  | .hbm, ⟨77, _⟩ => ⟨S1x1024, .f32⟩
  | .hbm, ⟨78, _⟩ => ⟨S8192x1024, .f32⟩
  | .hbm, ⟨79, _⟩ => ⟨S8192x1024, .f32⟩
  | .hbm, ⟨80, _⟩ => ⟨S8192x1024, .f32⟩
  | .hbm, ⟨81, _⟩ => ⟨S_, .f32⟩
  | .hbm, ⟨82, _⟩ => ⟨S8192x1024, .f32⟩
  | .hbm, ⟨83, _⟩ => ⟨S8192x1024, .f32⟩
  | .hbm, ⟨84, _⟩ => ⟨S8192x1024, .f32⟩
  | .hbm, ⟨85, _⟩ => ⟨S8192x1024, .f32⟩
  | .hbm, ⟨86, _⟩ => ⟨S_, .f32⟩
  | .hbm, ⟨87, _⟩ => ⟨S8192x1024, .f32⟩
  | .hbm, ⟨88, _⟩ => ⟨S8192x1024, .f32⟩
  | .hbm, ⟨89, _⟩ => ⟨S8192x1024, .f32⟩
  | .hbm, ⟨90, _⟩ => ⟨S8192x1024, .f32⟩
  | .hbm, ⟨91, _⟩ => ⟨S8192x1024, .f32⟩
  | .hbm, ⟨92, _⟩ => ⟨S_, .f32⟩
  | .hbm, ⟨93, _⟩ => ⟨S8192, .f32⟩
  | .hbm, ⟨94, _⟩ => ⟨S8192x1, .f32⟩
  | .hbm, ⟨95, _⟩ => ⟨S8192x1024, .f32⟩
  | .hbm, ⟨96, _⟩ => ⟨S8192x1024, .f32⟩
  | .hbm, ⟨97, _⟩ => ⟨S_, .f32⟩
  | .hbm, ⟨98, _⟩ => ⟨S8192, .f32⟩
  | .hbm, ⟨99, _⟩ => ⟨S8192x1024, .f32⟩
  | .hbm, ⟨100, _⟩ => ⟨S8192x1024, .f32⟩
  | .hbm, ⟨101, _⟩ => ⟨S_, .f32⟩
  | .hbm, ⟨102, _⟩ => ⟨S8192, .f32⟩
  | .hbm, ⟨103, _⟩ => ⟨S8192, .f32⟩
  | .hbm, ⟨104, _⟩ => ⟨S8192, .i1⟩
  | .hbm, ⟨105, _⟩ => ⟨S8192, .i1⟩
  | .hbm, ⟨106, _⟩ => ⟨S8192, .i1⟩
  | _, _ => ⟨S1024x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_cst_2 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_cst_5 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_cst_6 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_cst_7 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_8 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_cst_9 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_10 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_11 : Ref sig .tc := ⟨.hbm, 59, rfl⟩
abbrev main_v43 : Ref sig .tc := ⟨.hbm, 60, rfl⟩
abbrev main_v44 : Ref sig .tc := ⟨.hbm, 61, rfl⟩
abbrev main_cst_12 : Ref sig .tc := ⟨.hbm, 62, rfl⟩
abbrev main_v45 : Ref sig .tc := ⟨.hbm, 63, rfl⟩
abbrev main_v46 : Ref sig .tc := ⟨.hbm, 64, rfl⟩
abbrev main_cst_13 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_cst_14 : Ref sig .tc := ⟨.hbm, 71, rfl⟩
abbrev main_v52 : Ref sig .tc := ⟨.hbm, 72, rfl⟩
abbrev main_v53 : Ref sig .tc := ⟨.hbm, 73, rfl⟩
abbrev main_cst_15 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_16 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_cst_17 : Ref sig .tc := ⟨.hbm, 86, rfl⟩
abbrev main_v64 : Ref sig .tc := ⟨.hbm, 87, rfl⟩
abbrev main_v65 : Ref sig .tc := ⟨.hbm, 88, rfl⟩
abbrev main_v66 : Ref sig .tc := ⟨.hbm, 89, rfl⟩
abbrev main_v67 : Ref sig .tc := ⟨.hbm, 90, rfl⟩
abbrev main_v68 : Ref sig .tc := ⟨.hbm, 91, rfl⟩
abbrev main_cst_18 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_cst_19 : Ref sig .tc := ⟨.hbm, 97, rfl⟩
abbrev main_v73 : Ref sig .tc := ⟨.hbm, 98, rfl⟩
abbrev main_v74 : Ref sig .tc := ⟨.hbm, 99, rfl⟩
abbrev main_v75 : Ref sig .tc := ⟨.hbm, 100, rfl⟩
abbrev main_cst_20 : Ref sig .tc := ⟨.hbm, 101, rfl⟩
abbrev main_v76 : Ref sig .tc := ⟨.hbm, 102, rfl⟩
abbrev main_v77 : Ref sig .tc := ⟨.hbm, 103, rfl⟩
abbrev main_v78 : Ref sig .tc := ⟨.hbm, 104, rfl⟩
abbrev main_v79 : Ref sig .tc := ⟨.hbm, 105, rfl⟩
abbrev main_v80 : Ref sig .tc := ⟨.hbm, 106, rfl⟩

abbrev nD : Nat := 1
abbrev τ : Topo := Topo.v7x

variable {F : FTy → Type} [FloatOps F]

class Facts₀ : Prop where
  reducesTo_S8192x2048_S8192_d1 : S8192x2048.ReducesTo [1] S8192
  h_S_ : 0 < S_.numel
  bcast_S8192_S8192x1_0 : S8192.BroadcastsInDim S8192x1 (![0] : Fin 1 → Fin S8192x1.rank)
  reducesTo_S1024x2048_S1024_d1 : S1024x2048.ReducesTo [1] S1024
  bcast_S1024_S1x1024_1 : S1024.BroadcastsInDim S1x1024 (![1] : Fin 1 → Fin S1x1024.rank)
  bcast_S8192x1_S8192x1024_0_1 : S8192x1.BroadcastsInDim S8192x1024 (![0, 1] : Fin 2 → Fin S8192x1024.rank)
  bcast_S1x1024_S8192x1024_0_1 : S1x1024.BroadcastsInDim S8192x1024 (![0, 1] : Fin 2 → Fin S8192x1024.rank)
  bcast_S_S8192x1024 : S_.BroadcastsInDim S8192x1024 (![] : Fin 0 → Fin S8192x1024.rank)
  reducesTo_S8192x1024_S8192_d1 : S8192x1024.ReducesTo [1] S8192
  dot_S8192x2048_S1024x2048_S8192x1024_1_1_0_0_n_n_wf : DotDims.WF S8192x2048 S1024x2048 S8192x1024 [1] [1] [0] [0] [] []

variable [Facts₀]

def dot_S8192x2048_S1024x2048_S8192x1024_1_1_0_0_n_n : DotDims S8192x2048 S1024x2048 S8192x1024 where
  lhsContracting := [1]
  rhsContracting := [1]
  lhsNonContracting := [0]
  rhsNonContracting := [0]
  lhsBatch := []
  rhsBatch := []
  wf := dot_S8192x2048_S1024x2048_S8192x1024_1_1_0_0_n_n_wf

class Facts : Prop extends Facts₀ where

variable [Facts]
-- ==== Proof.KRun.lean ====
/-
  The idealized kernel's whole run, with every buffer's final contents named.

  @main is five segments: host operations, the first modality's pipelined call, host operations, the second
  modality's call, and the two comparisons that form the selection mask. The buffer contents at the segment
  boundaries are a fold from the launch memory; this module runs the segments once and keeps, for EVERY
  unscoped buffer of the TensorCore, what the last boundary holds there. The value modules read the seven
  results out of that fold; the arguments come back as launched.
-/
import proofs.«108093_j38130719653971_2_alg».proof.Proof.Gen.KernelIdeal.Frame

set_option maxRecDepth 16384

noncomputable section

namespace Cert.KernelIdeal.KVal

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main terminates, nothing faulting, and in every final state each unscoped
    buffer `b` of core `c` holds the last boundary's contents `W5 m ρ c b`. -/
theorem run_all : θ_run defs (onTc (τ := τ) (main (F := F))) ⟨m, fun _ => 0, ρ⟩ (fun r => ∀ c : Dev nD,
      ∀ b : Ref sig .tc, ¬ (Proc.devRef .tc b : DevRef τ sig).isScoped →
        r.2.mem ((c.tc : Thread nD τ).loc b) = W5 m ρ c (Proc.devRef .tc b)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c b hb => h c _ (mem_uc b hb))

end Cert.KernelIdeal.KVal

end
-- ==== Proof.Spec.lean ====
/-
  The posterior of one modality, as plain functions of its two argument arrays.

  For context points `P : [1024, 2048]` and targets `Q : [8192, 2048]` (extended reals) every output is a
  function of a target row `q` and a context row `c`:

    squared distance   ‖Q q − P c + ε‖²  expanded as  ‖Q q‖² + ‖P c‖² − 2 ⟨Q q, P c⟩ + 2ε (Σ Q q − Σ P c) + D ε²,
    distance           its square root after clamping at zero,
    weight             exp (− distance),
    posterior          weight / (the row's sum of weights),
    confidence         the row's maximum posterior,
    entropy            − Σ_c posterior · log posterior.

  Two spellings of the same mathematics are stated here. In the FOLDED one the row terms are collected
  first, `(‖Q q‖² + 2ε Σ Q q) + (‖P c‖² − 2ε Σ P c + D ε²) − 2 ⟨Q q, P c⟩`, the negation is a subtraction from
  zero, and the entropy is `Σ_c posterior · distance + log (row sum)`. In the DIRECT one the correction
  `2ε (Σ Q q − Σ P c) + D ε²` is added last, and the entropy is the textbook `− Σ posterior · log posterior`.
  The float literals stay as their bit patterns: the same word on both sides is never evaluated.
-/
import Idealize.ShloMosaic.PureOps.Ideal
import Idealize.ShloMosaic.PureOps.Ideal.Laws
import Idealize.ShloMosaic.Lib.ValueIdx

noncomputable section

open scoped BigOperators

namespace Cert.Posterior

open Idealize.ShloMosaic Idealize.ShloMosaic.ValueIdx

/-- The context array's shape, the target array's, the posterior's, and a per-target vector's. -/
abbrev ShP : Shape := ⟨2, ![1024, 2048]⟩
abbrev ShQ : Shape := ⟨2, ![8192, 2048]⟩
abbrev ShO : Shape := ⟨2, ![8192, 1024]⟩
abbrev ShV : Shape := ⟨1, ![8192]⟩

/-- The literals of both programs: `0`, `2ε` (the float nearest 2e-6), `D ε²` (the float nearest 2.048e-9), `2`, `-∞`. -/
abbrev zeroC : EReal := Ideal.ofBits .f32 0x00000000#32
abbrev epsC : EReal := Ideal.ofBits .f32 0x360637BD#32
abbrev kapC : EReal := Ideal.ofBits .f32 0x310CBCCC#32
abbrev twoC : EReal := Ideal.ofBits .f32 0x40000000#32
abbrev ninfC : EReal := Ideal.ofBits .f32 0xFF800000#32

variable (P : ShP.Idx → EReal) (Q : ShQ.Idx → EReal)

/-! ## The row terms -/

/-- `‖P c‖²`, `Σ P c`, `‖Q q‖²`, `Σ Q q` (each a host sum from the zero literal) and `⟨Q q, P c⟩`. -/
def sqP (c : Fin 1024) : EReal := zeroC + ∑ d : Fin 2048, P (ix2 c d) * P (ix2 c d)
def suP (c : Fin 1024) : EReal := zeroC + ∑ d : Fin 2048, P (ix2 c d)
def sqQ (q : Fin 8192) : EReal := zeroC + ∑ d : Fin 2048, Q (ix2 q d) * Q (ix2 q d)
def suQ (q : Fin 8192) : EReal := zeroC + ∑ d : Fin 2048, Q (ix2 q d)
def cross (q : Fin 8192) (c : Fin 1024) : EReal := ∑ d : Fin 2048, Q (ix2 q d) * P (ix2 c d)

/-! ## The folded spelling -/

/-- The context side's collected term `‖P c‖² − 2ε Σ P c + D ε²` and the target side's `‖Q q‖² + 2ε Σ Q q`. -/
def pcorr (c : Fin 1024) : EReal := (sqP P c - epsC * suP P c) + kapC
def qcorr (q : Fin 8192) : EReal := sqQ Q q + epsC * suQ Q q

def dist (q : Fin 8192) (c : Fin 1024) : EReal :=
  Ideal.sqrt (max ((qcorr Q q + pcorr P c) - twoC * cross P Q q c) zeroC)
def wgt (q : Fin 8192) (c : Fin 1024) : EReal := Ideal.exp (zeroC - dist P Q q c)
def rowsum (q : Fin 8192) : EReal := ∑ c : Fin 1024, wgt P Q q c
def post (q : Fin 8192) (c : Fin 1024) : EReal := Ideal.div (wgt P Q q c) (rowsum P Q q)
def conf (q : Fin 8192) : EReal := (Finset.univ : Finset (Fin 1024)).fold max ninfC (fun c => post P Q q c)
def ent (q : Fin 8192) : EReal := (∑ c : Fin 1024, post P Q q c * dist P Q q c) + Ideal.log (rowsum P Q q)

/-- The three outputs of one modality as whole arrays. -/
def postG : ShO.Idx → EReal := fun j => post P Q (j 0) (j 1)
def confG : ShV.Idx → EReal := fun j => conf P Q (j 0)
def entG : ShV.Idx → EReal := fun j => ent P Q (j 0)

/-! ## The direct spelling -/

def distR (q : Fin 8192) (c : Fin 1024) : EReal :=
  Ideal.sqrt (max (((sqQ Q q + sqP P c) - twoC * cross P Q q c) + (epsC * (suQ Q q - suP P c) + kapC)) zeroC)
def wgtR (q : Fin 8192) (c : Fin 1024) : EReal := Ideal.exp (-(distR P Q q c))
def rowsumR (q : Fin 8192) : EReal := zeroC + ∑ c : Fin 1024, wgtR P Q q c
def postR (q : Fin 8192) (c : Fin 1024) : EReal := Ideal.div (wgtR P Q q c) (rowsumR P Q q)
def confR (q : Fin 8192) : EReal := (Finset.univ : Finset (Fin 1024)).fold max ninfC (fun c => postR P Q q c)
def entR (q : Fin 8192) : EReal := -(zeroC + ∑ c : Fin 1024, postR P Q q c * Ideal.log (postR P Q q c))

def postRG : ShO.Idx → EReal := fun j => postR P Q (j 0) (j 1)
def confRG : ShV.Idx → EReal := fun j => confR P Q (j 0)
def entRG : ShV.Idx → EReal := fun j => entR P Q (j 0)

end Cert.Posterior

end
-- ==== Proof.KHost.lean ====
/-
  What the two pipelined calls find in their input arrays.

  Before each call the host computes, from the modality's two argument arrays, the four arrays the call reads:
  the targets and the contexts rounded to bf16 (at the ideal values: the arrays themselves), the targets' collected
  terms `‖Q q‖² + 2ε Σ Q q` as an [8192, 1] column, and the contexts' collected terms `‖P c‖² − 2ε Σ P c + D ε²`
  as a [1, 1024] row. This module names those two host chains as functions of an argument array, reads them at an
  index (a host sum is the zero literal plus the sum over the reduced axis; the broadcasts and the reshape move
  coordinates), and identifies the buffers at each call's entry with them. The second call's arguments are read
  through the first call's exit contents, which leave every argument as launched.
-/
import proofs.«108093_j38130719653971_2_alg».proof.Proof.Gen.KernelIdeal.Frame
import proofs.«108093_j38130719653971_2_alg».proof.Proof.Spec
import Idealize.ShloMosaic.Lib.StableHlo.Run
import Idealize.ShloMosaic.Lib.ValueLayout
import Idealize.ShloMosaic.Lib.ValueIdx
import Idealize.ShloMosaic.Lib.Pipeline.Value
import Idealize.ShloMosaic.PureOps.Ideal.Laws

set_option maxRecDepth 16384

noncomputable section

open scoped BigOperators

namespace Cert.KernelIdeal.KHost

open Cert.KernelIdeal Cert.KernelIdeal.Gen Cert.Posterior
open Idealize.ShloMosaic Idealize.ShloMosaic.TcCoe Idealize.ShloMosaic.Tactic Idealize.SL.Sem Idealize.ShloMosaic.StableHlo
open Idealize.ShloMosaic.ValueIdx

/-! ## The two host chains -/

/-- The targets' collected column, from the target array. -/
def hq (A : FVec Ideal S8192x2048 .f32) : FVec Ideal S8192x1 .f32 :=
  addf
    (broadcastInDim S8192x1 ![0] bcast_S8192_S8192x1_0
      (Host.reduceAdd (F := Ideal) (mulf A A) (constant (F := Ideal) S_ .f32 0x00000000#32) reducesTo_S8192x2048_S8192_d1 h_S_))
    (mulf (broadcastInDim S8192x1 ![] bcast_S_S8192x1 (constant (F := Ideal) S_ .f32 0x360637BD#32))
      (broadcastInDim S8192x1 ![0] bcast_S8192_S8192x1_0
        (Host.reduceAdd (F := Ideal) A (constant (F := Ideal) S_ .f32 0x00000000#32) reducesTo_S8192x2048_S8192_d1 h_S_)))

/-- The contexts' collected row, from the context array. -/
def hp (B : FVec Ideal S1024x2048 .f32) : FVec Ideal S1x1024 .f32 :=
  shapeCast S1x1024
    (addf
      (subf
        (Host.reduceAdd (F := Ideal) (mulf B B) (constant (F := Ideal) S_ .f32 0x00000000#32) reducesTo_S1024x2048_S1024_d1 h_S_)
        (mulf (broadcastInDim S1024 ![] bcast_S_S1024 (constant (F := Ideal) S_ .f32 0x360637BD#32))
          (Host.reduceAdd (F := Ideal) B (constant (F := Ideal) S_ .f32 0x00000000#32) reducesTo_S1024x2048_S1024_d1 h_S_)))
      (broadcastInDim S1024 ![] bcast_S_S1024 (constant (F := Ideal) S_ .f32 0x310CBCCC#32)))
    shapeCasts_S1024_S1x1024

/-! ## Their operations at coordinates -/

theorem sumQ_at (Y : FVec Ideal S8192x2048 .f32) (q : Fin 8192) :
    Host.reduceAdd (F := Ideal) Y (constant (F := Ideal) S_ .f32 0x00000000#32) reducesTo_S8192x2048_S8192_d1 h_S_ (ix1 q)
      = zeroC + ∑ d : Fin 2048, Y (ix2 q d) := by
  simp only [Host.reduceAdd, Ideal.hostReduceAdd_def]
  rw [Ideal.hostReduceAdd_single reducesTo_S8192x2048_S8192_d1 (by decide)]
  exact congrArg (zeroC + ·) (Finset.sum_congr rfl fun k _ =>
    congrArg Y (funext fun a => Fin.ext (by match a with | ⟨0, _⟩ => rfl | ⟨1, _⟩ => rfl)))

theorem sumP_at (Y : FVec Ideal S1024x2048 .f32) (k : Fin 1024) :
    Host.reduceAdd (F := Ideal) Y (constant (F := Ideal) S_ .f32 0x00000000#32) reducesTo_S1024x2048_S1024_d1 h_S_ (ix1 k)
      = zeroC + ∑ d : Fin 2048, Y (ix2 k d) := by
  simp only [Host.reduceAdd, Ideal.hostReduceAdd_def]
  rw [Ideal.hostReduceAdd_single reducesTo_S1024x2048_S1024_d1 (by decide)]
  exact congrArg (zeroC + ·) (Finset.sum_congr rfl fun d _ =>
    congrArg Y (funext fun a => Fin.ext (by match a with | ⟨0, _⟩ => rfl | ⟨1, _⟩ => rfl)))

/-- A per-target vector as an [8192, 1] column. -/
theorem col_at (v : FVec Ideal S8192 .f32) (q : Fin 8192) (u : Fin 1) :
    broadcastInDim S8192x1 ![0] bcast_S8192_S8192x1_0 v (ix2 q u) = v (ix1 q) :=
  broadcastInDim_apply _ bcast_S8192_S8192x1_0 v (ix2 q u) (ix1 q) (fun a => match a with
    | ⟨0, _⟩ => by show q.val = if (8192 : Nat) = 1 then 0 else q.val; rw [if_neg (by decide)])

/-- A scalar broadcast to any of the two shapes reads the scalar. -/
theorem splatCol_at (x : FVec Ideal S_ .f32) (j : S8192x1.Idx) :
    broadcastInDim S8192x1 ![] bcast_S_S8192x1 x j = x ix0 :=
  broadcastInDim_apply _ bcast_S_S8192x1 x j ix0 (fun a => a.elim0)
theorem splatRow_at (x : FVec Ideal S_ .f32) (j : S1024.Idx) :
    broadcastInDim S1024 ![] bcast_S_S1024 x j = x ix0 :=
  broadcastInDim_apply _ bcast_S_S1024 x j ix0 (fun a => a.elim0)

/-- The targets' column at row `q` is the collected term of target row `q`. -/
theorem hq_at (A : FVec Ideal S8192x2048 .f32) (q : Fin 8192) (u : Fin 1) : hq A (ix2 q u) = qcorr A q := by
  unfold hq qcorr sqQ suQ
  rw [addf_apply, mulf_apply, col_at, col_at, splatCol_at, sumQ_at, sumQ_at]
  rfl

/-- The contexts' row at column `k` is the collected term of context row `k`. -/
theorem hp_at (B : FVec Ideal S1024x2048 .f32) (u : Fin 1) (k : Fin 1024) : hp B (ix2 u k) = pcorr B k := by
  unfold hp pcorr sqP suP
  refine (shapeCast_a_1a_apply _ shapeCasts_S1024_S1x1024 u k).trans ?_
  rw [addf_apply, subf_apply, mulf_apply, splatRow_at, splatRow_at, sumP_at, sumP_at]
  rfl

/-! ## The buffers at the calls' entries -/

variable (m : (ℓ : Loc nD τ sig) → Buf (Elt Ideal) ℓ) (ρ : Dev nD → PrngReg)

theorem V1_v1 (c : Dev nD) :
    (V1 m ρ c main_v1 : S8192x2048.Idx → EReal) = (m ((c : Thread nD τ).loc main_arg2) : S8192x2048.Idx → EReal) := by
  show StableHlo.after hostOps0 (W0 m ρ c) (Proc.devRef .tc main_v1) = _
  after_results; rfl
theorem V1_v0 (c : Dev nD) :
    (V1 m ρ c main_v0 : S1024x2048.Idx → EReal) = (m ((c : Thread nD τ).loc main_arg0) : S1024x2048.Idx → EReal) := by
  show StableHlo.after hostOps0 (W0 m ρ c) (Proc.devRef .tc main_v0) = _
  after_results; rfl
theorem V1_v18 (c : Dev nD) : V1 m ρ c main_v18 = hq (m ((c : Thread nD τ).loc main_arg2)) := by
  show StableHlo.after hostOps0 (W0 m ρ c) (Proc.devRef .tc main_v18) = _
  after_results; rfl
theorem V1_v10 (c : Dev nD) : V1 m ρ c main_v10 = hp (m ((c : Thread nD τ).loc main_arg0)) := by
  show StableHlo.after hostOps0 (W0 m ρ c) (Proc.devRef .tc main_v10) = _
  after_results; rfl

/-- The first call leaves the second modality's arguments as launched. -/
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := StableHlo.after_of_forall_not_mem (b := Proc.devRef .tc main_arg1) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg1) := rfl
theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := W2_of_ne m ρ c main_arg3 (by decide)
    _ = W0 m ρ c (Proc.devRef .tc main_arg3) := StableHlo.after_of_forall_not_mem (b := Proc.devRef .tc main_arg3) _ _ (List.forall_iff_forall_mem.mp (by
          simp only [hostOps0, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = m ((c : Thread nD τ).loc main_arg3) := rfl

theorem V3_v21 (c : Dev nD) :
    (V3 m ρ c main_v21 : S8192x2048.Idx → EReal) = (m ((c : Thread nD τ).loc main_arg3) : S8192x2048.Idx → EReal) := by
  show StableHlo.after hostOps1 (W2 m ρ c) (Proc.devRef .tc main_v21) = _
  after_results; rw [W2_main_arg3]; rfl
theorem V3_v20 (c : Dev nD) :
    (V3 m ρ c main_v20 : S1024x2048.Idx → EReal) = (m ((c : Thread nD τ).loc main_arg1) : S1024x2048.Idx → EReal) := by
  show StableHlo.after hostOps1 (W2 m ρ c) (Proc.devRef .tc main_v20) = _
  after_results; rw [W2_main_arg1]; rfl
theorem V3_v38 (c : Dev nD) : V3 m ρ c main_v38 = hq (m ((c : Thread nD τ).loc main_arg3)) := by
  show StableHlo.after hostOps1 (W2 m ρ c) (Proc.devRef .tc main_v38) = _
  after_results; rw [W2_main_arg3]; rfl
theorem V3_v30 (c : Dev nD) : V3 m ρ c main_v30 = hp (m ((c : Thread nD τ).loc main_arg1)) := by
  show StableHlo.after hostOps1 (W2 m ρ c) (Proc.devRef .tc main_v30) = _
  after_results; rw [W2_main_arg1]; rfl

end Cert.KernelIdeal.KHost

end
-- ==== Proof.RowSpec.lean ====
/-
  One target row against all context rows.

  Every output of the posterior at target row `q` depends on the arrays only through three things: the target
  side's collected term `a`, the context side's collected terms `pc k`, and the inner products `cr k` of the row
  with each context row. This module states the folded spelling as functions of those three, so that a block of
  512 target rows and the whole array of 8192 are the same functions at different arguments.
-/
import proofs.«108093_j38130719653971_2_alg».proof.Proof.Spec

noncomputable section

open scoped BigOperators

namespace Cert.Posterior

open Idealize.ShloMosaic Idealize.ShloMosaic.ValueIdx

def rdist (a : EReal) (pc cr : Fin 1024 → EReal) (k : Fin 1024) : EReal :=
  Ideal.sqrt (max ((a + pc k) - twoC * cr k) zeroC)
def rwgt (a : EReal) (pc cr : Fin 1024 → EReal) (k : Fin 1024) : EReal := Ideal.exp (zeroC - rdist a pc cr k)
def rsum (a : EReal) (pc cr : Fin 1024 → EReal) : EReal := ∑ k : Fin 1024, rwgt a pc cr k
def rpost (a : EReal) (pc cr : Fin 1024 → EReal) (k : Fin 1024) : EReal := Ideal.div (rwgt a pc cr k) (rsum a pc cr)
def rconf (a : EReal) (pc cr : Fin 1024 → EReal) : EReal :=
  (Finset.univ : Finset (Fin 1024)).fold max ninfC (fun k => rpost a pc cr k)
def rent (a : EReal) (pc cr : Fin 1024 → EReal) : EReal :=
  (∑ k : Fin 1024, rpost a pc cr k * rdist a pc cr k) + Ideal.log (rsum a pc cr)

variable (P : ShP.Idx → EReal) (Q : ShQ.Idx → EReal)

/-- The array functions are the row functions at the row's three ingredients. -/
theorem post_eq_row (q : Fin 8192) (c : Fin 1024) :
    post P Q q c = rpost (qcorr Q q) (pcorr P) (cross P Q q) c := rfl
theorem conf_eq_row (q : Fin 8192) : conf P Q q = rconf (qcorr Q q) (pcorr P) (cross P Q q) := rfl
theorem ent_eq_row (q : Fin 8192) : ent P Q q = rent (qcorr Q q) (pcorr P) (cross P Q q) := rfl

end Cert.Posterior

end
-- ==== Proof.LibColumnLayout.lean ====
/-
  The layout operations a sum or a minimum taken with its reduced axis KEPT needs, read at an index given by its
  coordinates: a vector cast to a one-column matrix, a one-column matrix broadcast across columns, and a one-row matrix with
  a leading unit axis. (The leading-unit-axis casts and the one-row broadcast are in the library's layout file; these are
  the column forms beside them.) Each statement names both indices by their coordinates over literal extents.
-/
import Idealize.ShloMosaic.Lib.Pipeline.Value
import Idealize.ShloMosaic.Lib.ValueIdx

noncomputable section

namespace Idealize.ShloMosaic.ColumnLayout

open Idealize.ShloMosaic Idealize.ShloMosaic.ValueIdx

variable {α : Type}

/-- An `[a]` vector cast to an `[a, 1]` column reads, at `(i, u)`, the vector at `i`, whatever the unit coordinate. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.ColumnLayout

end
-- ==== Proof.LibInnerUnitAxis.lean ====
/-
  Casts that drop a unit axis which is not the leading one, read at an index given by its coordinates: a one-column
  matrix `[a, 1]` cast to the vector `[a]`, and a stack `[a, 1, b]` cast to the matrix `[a, b]`. In both the row-major position
  is unchanged because the dropped axis contributes a factor one and a coordinate zero.
-/
import Idealize.ShloMosaic.Lib.Pipeline.Value
import Idealize.ShloMosaic.Lib.ValueIdx

noncomputable section

namespace Idealize.ShloMosaic.InnerUnitAxis

open Idealize.ShloMosaic Idealize.ShloMosaic.ValueIdx

variable {α : Type}

/-- An `[a, 1]` column cast to an `[a]` vector reads, at `i`, the column at row `i`. -/
theorem shapeCast_a1_a_apply {a : ℕ} (x : (⟨2, ![a, 1]⟩ : Shape).Idx → α) (h : (⟨2, ![a, 1]⟩ : Shape).ShapeCasts ⟨1, ![a]⟩)
    (i : Fin a) : shapeCast ⟨1, ![a]⟩ x h (ix1 i) = x (ix2 i (0 : Fin 1)) :=
  shapeCast_apply x h _ _ (by
    rw [Shape.rowMajor_val_two, Shape.rowMajor_val_one]
    show i.val * 1 + 0 = i.val
    rw [Nat.mul_one, Nat.add_zero])

/-- An `[a, 1, b]` stack cast to an `[a, b]` matrix reads, at `(i, j)`, the stack at `(i, 0, j)`. -/
theorem shapeCast_a1b_ab_apply {a b : ℕ} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

end Idealize.ShloMosaic.InnerUnitAxis

end
-- ==== Proof.KBody.lean ====
/-
  The kernel body's arithmetic at an index.

  The body loads a block of 512 target rows (in bf16, which at the ideal values is the row itself), the rows'
  collected terms as a [512, 1] column, all 1024 context rows and their collected terms as a [1, 1024] row. This
  module reads each stored value at an index given by its coordinates: row `p` of the block is one target row
  against all contexts, with `a = x1 (p, 0)`, `pc k = x3 (0, k)` and `cr k = Σ_d x0 (p, d) · x2 (k, d)`
  (the matrix product into a zero accumulator is that sum; the lane reductions are a sum and a fold of max over
  the 1024 columns; the casts and broadcasts only move coordinates).
-/
import proofs.«108093_j38130719653971_2_alg».proof.Proof.Gen.KernelIdeal.Skeleton
import proofs.«108093_j38130719653971_2_alg».proof.Proof.RowSpec
import proofs.«108093_j38130719653971_2_alg».proof.Proof.LibColumnLayout
import proofs.«108093_j38130719653971_2_alg».proof.Proof.LibInnerUnitAxis
import Idealize.ShloMosaic.Lib.ValueLayout
import Idealize.ShloMosaic.Lib.ValueIdx
import Idealize.ShloMosaic.Lib.Pipeline.Value
import Idealize.ShloMosaic.PureOps.Ideal.Laws

noncomputable section

open scoped BigOperators

namespace Cert.KernelIdeal.KBody

open Cert.KernelIdeal Cert.KernelIdeal.Gen Cert.Posterior
open Idealize.ShloMosaic Idealize.ShloMosaic.ValueIdx

/-! ## The non-pointwise operations, each at coordinates -/

/-- The product of a [512, 2048] block with the transpose of a [1024, 2048] array into a zero accumulator, at
    `(p, k)`: the inner product of row `p` with row `k`. -/
theorem matmul_at (l : FVec Ideal S512x2048 .bf16) (r : FVec Ideal S1024x2048 .bf16) (p : Fin 512) (k : Fin 1024) :
    matmul dot_S512x2048_S1024x2048_S512x1024_1_1_0_0_n_n none l r (constant S512x1024 .f32 0x00000000#32) (ix2 p k)
      = ∑ d : Fin 2048, l (ix2 p d) * r (ix2 k d) := by
  simp only [matmul]
  rw [Ideal.matmul_constant_zero_apply, ← Equiv.sum_comp (ValueIdx.contrEquiv1 dot_S512x2048_S1024x2048_S512x1024_1_1_0_0_n_n 2048 rfl rfl).symm]
  refine Finset.sum_congr rfl fun d _ => ?_
  have hd := ValueIdx.contrEquiv1_symm_val dot_S512x2048_S1024x2048_S512x1024_1_1_0_0_n_n 2048 rfl rfl d
  have el : dot_S512x2048_S1024x2048_S512x1024_1_1_0_0_n_n.lhsIdx (ix2 p k) ((ValueIdx.contrEquiv1 dot_S512x2048_S1024x2048_S512x1024_1_1_0_0_n_n 2048 rfl rfl).symm d) = ix2 p d := funext fun a => Fin.ext (by
    match a with
    | ⟨0, _⟩ =>
      show (dot_S512x2048_S1024x2048_S512x1024_1_1_0_0_n_n.lhsIdx (ix2 p k) _ 0).val = p.val
      unfold DotDims.lhsIdx
      rw [dif_neg (show ¬(0 : Fin S512x2048.rank) ∈ dot_S512x2048_S1024x2048_S512x1024_1_1_0_0_n_n.lhsBatch by decide), dif_pos (show (0 : Fin S512x2048.rank) ∈ dot_S512x2048_S1024x2048_S512x1024_1_1_0_0_n_n.lhsNonContracting by decide)]
      rfl
    | ⟨1, _⟩ => exact (dot_S512x2048_S1024x2048_S512x1024_1_1_0_0_n_n.lhsIdx_val_of_single rfl (ix2 p k) _).trans hd)
  have er : dot_S512x2048_S1024x2048_S512x1024_1_1_0_0_n_n.rhsIdx (ix2 p k) ((ValueIdx.contrEquiv1 dot_S512x2048_S1024x2048_S512x1024_1_1_0_0_n_n 2048 rfl rfl).symm d) = ix2 k d := funext fun a => Fin.ext (by
    match a with
    | ⟨0, _⟩ =>
      show (dot_S512x2048_S1024x2048_S512x1024_1_1_0_0_n_n.rhsIdx (ix2 p k) _ 0).val = k.val
      unfold DotDims.rhsIdx
      rw [dif_neg (show ¬(0 : Fin S1024x2048.rank) ∈ dot_S512x2048_S1024x2048_S512x1024_1_1_0_0_n_n.rhsBatch by decide), dif_pos (show (0 : Fin S1024x2048.rank) ∈ dot_S512x2048_S1024x2048_S512x1024_1_1_0_0_n_n.rhsNonContracting by decide)]
      rfl
    | ⟨1, _⟩ => exact (dot_S512x2048_S1024x2048_S512x1024_1_1_0_0_n_n.rhsIdx_val_of_single rfl (ix2 p k) _).trans hd)
  rw [el, er]

/-- A sum over the 1024 columns of a [512, 1024] vector, at row `p`. -/
theorem laneSum_at (src : FVec Ideal S512x1024 .f32) (p : Fin 512) :
    multiReduction .add [1] S512 src 0x00000000#32 reduces_S512x1024_S512 (.inl rfl) rfl (ix1 p)
      = ∑ k : Fin 1024, src (ix2 p k) := by
  refine (Ideal.multiReduction_add_single src 0x00000000#32 reduces_S512x1024_S512 (.inl rfl) rfl (ix1 p)).trans ?_
  exact Finset.sum_congr rfl fun k _ => congrArg src (funext fun a => Fin.ext (by match a with | ⟨0, _⟩ => rfl | ⟨1, _⟩ => rfl))

/-- A maximum over the 1024 columns of a [512, 1024] vector from the `-∞` word, at row `p`. -/
theorem laneMax_at (src : FVec Ideal S512x1024 .f32) (p : Fin 512) :
    multiReduction .maximumf [1] S512 src 0xFF800000#32 reduces_S512x1024_S512 (.inl rfl) rfl (ix1 p)
      = (Finset.univ : Finset (Fin 1024)).fold max ninfC (fun k => src (ix2 p k)) := by
  refine (Ideal.multiReduction_maximumf_single src 0xFF800000#32 reduces_S512x1024_S512 (.inl rfl) rfl (ix1 p)).trans ?_
  have hf : (src ∘ reduces_S512x1024_S512.lift (ix1 p)) = fun k : Fin 1024 => src (ix2 p k) :=
    funext fun k => congrArg src (funext fun a => Fin.ext (by match a with | ⟨0, _⟩ => rfl | ⟨1, _⟩ => rfl))
  exact congrArg (fun f => Finset.fold max ninfC f (Finset.univ : Finset (Fin 1024))) hf

/-- The column of collected terms broadcast across the columns, and the row broadcast down the rows. -/
theorem colBcast_at (v : FVec Ideal S512x1 .f32) (p : Fin 512) (k : Fin 1024) :
    broadcastTo S512x1024 v broadcasts_S512x1_S512x1024 (ix2 p k) = v (ix2 p (0 : Fin 1)) :=
  ColumnLayout.broadcastTo_a1_ab_apply v broadcasts_S512x1_S512x1024 p k
theorem rowBcast_at (v : FVec Ideal S1x1024 .f32) (p : Fin 512) (k : Fin 1024) :
    broadcastTo S512x1024 v broadcasts_S1x1024_S512x1024 (ix2 p k) = v (ix2 (0 : Fin 1) k) :=
  broadcastTo_1b_ab_apply v broadcasts_S1x1024_S512x1024 p k

/-! ## The payloads -/

variable (x0 : FVec Ideal S512x2048 .bf16) (x2 : FVec Ideal S1024x2048 .bf16) (x1 : FVec Ideal S512x1 .f32) (x3 : FVec Ideal S1x1024 .f32)

/-- The three ingredients of block row `p`. -/
abbrev bpc (x3 : FVec Ideal S1x1024 .f32) : Fin 1024 → EReal := fun k => x3 (ix2 (0 : Fin 1) k)
abbrev bcr (x0 : FVec Ideal S512x2048 .bf16) (x2 : FVec Ideal S1024x2048 .bf16) (p : Fin 512) : Fin 1024 → EReal :=
  fun k => ∑ d : Fin 2048, x0 (ix2 p d) * x2 (ix2 k d)

theorem pay1_at (p : Fin 512) (k : Fin 1024) :
    k0_pay1 (F := Ideal) x0 x2 x1 x3 (ix2 p k) = rdist (x1 (ix2 p (0 : Fin 1))) (bpc x3) (bcr x0 x2 p) k := by
  unfold k0_pay1 rdist
  simp only [shapeCast_self]
  show Ideal.sqrt (max ((broadcastTo S512x1024 x1 broadcasts_S512x1_S512x1024 (ix2 p k) + broadcastTo S512x1024 x3 broadcasts_S1x1024_S512x1024 (ix2 p k))
      - twoC * matmul dot_S512x2048_S1024x2048_S512x1024_1_1_0_0_n_n none x0 x2 (constant S512x1024 .f32 0x00000000#32) (ix2 p k)) zeroC) = _
  rw [colBcast_at, rowBcast_at, matmul_at]

theorem pay2_at (p : Fin 512) (k : Fin 1024) :
    k0_pay2 (F := Ideal) x0 x2 x1 x3 (ix2 p k) = rwgt (x1 (ix2 p (0 : Fin 1))) (bpc x3) (bcr x0 x2 p) k := by
  unfold k0_pay2 rwgt
  show Ideal.exp (zeroC - k0_pay1 (F := Ideal) x0 x2 x1 x3 (ix2 p k)) = _
  rw [pay1_at]

theorem pay3_at (p : Fin 512) (u : Fin 1) :
    k0_pay3 (F := Ideal) x0 x2 x1 x3 (ix2 p u) = rsum (x1 (ix2 p (0 : Fin 1))) (bpc x3) (bcr x0 x2 p) := by
  unfold k0_pay3 rsum
  refine (ColumnLayout.shapeCast_a_a1_apply _ shapeCasts_S512_S512x1 p u).trans ?_
  refine (laneSum_at _ p).trans ?_
  exact Finset.sum_congr rfl fun k _ => pay2_at x0 x2 x1 x3 p k

theorem pay4_at (p : Fin 512) (k : Fin 1024) :
    k0_pay4 (F := Ideal) x0 x2 x1 x3 (ix2 p k) = rpost (x1 (ix2 p (0 : Fin 1))) (bpc x3) (bcr x0 x2 p) k := by
  unfold k0_pay4 rpost
  show Ideal.div (k0_pay2 (F := Ideal) x0 x2 x1 x3 (ix2 p k)) (broadcastTo S512x1024 (k0_pay3 (F := Ideal) x0 x2 x1 x3) broadcasts_S512x1_S512x1024 (ix2 p k)) = _
  rw [colBcast_at, pay2_at, pay3_at]

theorem pay5_at (p : Fin 512) :
    k0_pay5 (F := Ideal) x0 x2 x1 x3 (ix1 p) = rconf (x1 (ix2 p (0 : Fin 1))) (bpc x3) (bcr x0 x2 p) := by
  unfold k0_pay5 rconf
  refine (laneMax_at _ p).trans ?_
  exact congrArg (fun f => Finset.fold max ninfC f (Finset.univ : Finset (Fin 1024))) (funext fun k => pay4_at x0 x2 x1 x3 p k)

theorem pay6_at (p : Fin 512) :
    k0_pay6 (F := Ideal) x0 x2 x1 x3 (ix1 p) = rent (x1 (ix2 p (0 : Fin 1))) (bpc x3) (bcr x0 x2 p) := by
  unfold k0_pay6 rent
  show multiReduction .add [1] S512 (mulf (k0_pay4 (F := Ideal) x0 x2 x1 x3) (k0_pay1 (F := Ideal) x0 x2 x1 x3)) 0x00000000#32 reduces_S512x1024_S512 (.inl rfl) rfl (ix1 p)
      + shapeCast S512 (log (k0_pay3 (F := Ideal) x0 x2 x1 x3)) shapeCasts_S512x1_S512 (ix1 p) = _
  rw [laneSum_at, InnerUnitAxis.shapeCast_a1_a_apply]
  show (∑ k : Fin 1024, k0_pay4 (F := Ideal) x0 x2 x1 x3 (ix2 p k) * k0_pay1 (F := Ideal) x0 x2 x1 x3 (ix2 p k)) + Ideal.log (k0_pay3 (F := Ideal) x0 x2 x1 x3 (ix2 p (0 : Fin 1))) = _
  rw [pay3_at]
  exact congrArg (· + _) (Finset.sum_congr rfl fun k _ => by rw [pay4_at, pay1_at])

/-- The second call's body is the same text: its payloads are the first call's. -/
theorem pay4_at' (p : Fin 512) (k : Fin 1024) :
    k1_pay4 (F := Ideal) x0 x2 x1 x3 (ix2 p k) = rpost (x1 (ix2 p (0 : Fin 1))) (bpc x3) (bcr x0 x2 p) k := pay4_at x0 x2 x1 x3 p k
theorem pay5_at' (p : Fin 512) :
    k1_pay5 (F := Ideal) x0 x2 x1 x3 (ix1 p) = rconf (x1 (ix2 p (0 : Fin 1))) (bpc x3) (bcr x0 x2 p) := pay5_at x0 x2 x1 x3 p
theorem pay6_at' (p : Fin 512) :
    k1_pay6 (F := Ideal) x0 x2 x1 x3 (ix1 p) = rent (x1 (ix2 p (0 : Fin 1))) (bpc x3) (bcr x0 x2 p) := pay6_at x0 x2 x1 x3 p

end Cert.KernelIdeal.KBody

end
-- ==== Proof.KBlock.lean ====
/-
  A block of 512 target rows is 512 rows of the whole array.

  If the body's four loaded blocks are what the arrays hold there — block row `p` is target row `r p`, with its
  collected term; the context rows and their collected terms are all present — then each stored value at block
  row `p` is the posterior's function at target row `r p`: the three ingredients of the row agree, and the outputs
  are functions of those three only.
-/
import proofs.«108093_j38130719653971_2_alg».proof.Proof.KBody

noncomputable section

open scoped BigOperators

namespace Cert.KernelIdeal.KBody

open Cert.KernelIdeal Cert.KernelIdeal.Gen Cert.Posterior
open Idealize.ShloMosaic Idealize.ShloMosaic.ValueIdx

theorem rows_of_block (P : ShP.Idx → EReal) (Q : ShQ.Idx → EReal)
    (x0 : FVec Ideal S512x2048 .bf16) (x1 : FVec Ideal S512x1 .f32) (x2 : FVec Ideal S1024x2048 .bf16) (x3 : FVec Ideal S1x1024 .f32)
    (r : Fin 512 → Fin 8192)
    (h0 : ∀ (p : Fin 512) (d : Fin 2048), x0 (ix2 p d) = Q (ix2 (r p) d))
    (h1 : ∀ p : Fin 512, x1 (ix2 p (0 : Fin 1)) = qcorr Q (r p))
    (h2 : ∀ (k : Fin 1024) (d : Fin 2048), x2 (ix2 k d) = P (ix2 k d))
    (h3 : ∀ k : Fin 1024, x3 (ix2 (0 : Fin 1) k) = pcorr P k) (p : Fin 512) :
    (∀ k : Fin 1024, k0_pay4 (F := Ideal) x0 x2 x1 x3 (ix2 p k) = post P Q (r p) k)
    ∧ k0_pay5 (F := Ideal) x0 x2 x1 x3 (ix1 p) = conf P Q (r p)
    ∧ k0_pay6 (F := Ideal) x0 x2 x1 x3 (ix1 p) = ent P Q (r p) := by
  have ha : x1 (ix2 p (0 : Fin 1)) = qcorr Q (r p) := h1 p
  have hpc : bpc x3 = pcorr P := funext h3
  have hcr : bcr x0 x2 p = cross P Q (r p) := funext fun k => Finset.sum_congr rfl fun d _ => by rw [h0, h2]
  refine ⟨fun k => ?_, ?_, ?_⟩
  · rw [pay4_at, ha, hpc, hcr]; rfl
  · rw [pay5_at, ha, hpc, hcr]; rfl
  · rw [pay6_at, ha, hpc, hcr]; rfl

/-- The same for the second call's body, which is the same text. -/
theorem rows_of_block' (P : ShP.Idx → EReal) (Q : ShQ.Idx → EReal)
    (x0 : FVec Ideal S512x2048 .bf16) (x1 : FVec Ideal S512x1 .f32) (x2 : FVec Ideal S1024x2048 .bf16) (x3 : FVec Ideal S1x1024 .f32)
    (r : Fin 512 → Fin 8192)
    (h0 : ∀ (p : Fin 512) (d : Fin 2048), x0 (ix2 p d) = Q (ix2 (r p) d))
    (h1 : ∀ p : Fin 512, x1 (ix2 p (0 : Fin 1)) = qcorr Q (r p))
    (h2 : ∀ (k : Fin 1024) (d : Fin 2048), x2 (ix2 k d) = P (ix2 k d))
    (h3 : ∀ k : Fin 1024, x3 (ix2 (0 : Fin 1) k) = pcorr P k) (p : Fin 512) :
    (∀ k : Fin 1024, k1_pay4 (F := Ideal) x0 x2 x1 x3 (ix2 p k) = post P Q (r p) k)
    ∧ k1_pay5 (F := Ideal) x0 x2 x1 x3 (ix1 p) = conf P Q (r p)
    ∧ k1_pay6 (F := Ideal) x0 x2 x1 x3 (ix1 p) = ent P Q (r p) :=
  rows_of_block P Q x0 x1 x2 x3 r h0 h1 h2 h3 p

end Cert.KernelIdeal.KBody

end
-- ==== Proof.KBlocks0.lean ====
/-
  The first call: its three output arrays after the pipeline, as functions of the modality's arguments.

  The grid has 16 points; point `t` reads target rows `512 t … 512 t + 511` (with their collected terms), all the
  contexts, and writes back rows `512 t …` of the posterior and entries `512 t …` of the confidence and the
  entropy. What a point writes back is therefore a block of ONE whole-array function (`postG`, `confG`, `entG` of
  the two arguments), and the 16 blocks cover each array, so each array ends holding that function.
-/
import proofs.«108093_j38130719653971_2_alg».proof.Proof.KHost
import proofs.«108093_j38130719653971_2_alg».proof.Proof.KBlock

set_option maxRecDepth 16384

noncomputable section

open scoped BigOperators

namespace Cert.KernelIdeal.KBlocks0

open Cert.KernelIdeal Cert.KernelIdeal.Gen Cert.Posterior
open Idealize.ShloMosaic Idealize.ShloMosaic.TcCoe Idealize.SL.Sem
open Idealize.ShloMosaic.ValueIdx
open Idealize.ShloMosaic.Pipeline (Dat Cfg Window)

variable (m : (ℓ : Loc nD τ sig) → Buf (Elt Ideal) ℓ) (ρ : Dev nD → PrngReg)

/-- The modality's context array and target array, as launched. -/
abbrev Pa (c : Dev nD) : ShP.Idx → EReal := m ((c : Thread nD τ).loc main_arg0)
abbrev Qa (c : Dev nD) : ShQ.Idx → EReal := m ((c : Thread nD τ).loc main_arg2)

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the target-side windows and the outputs move with the point, the
    context-side windows stay at block 0. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = t.val ∧ win0_4.index t (1 : Fin 2) = 0
    ∧ win0_5.index t (0 : Fin 1) = t.val ∧ win0_6.index t (0 : Fin 1) = t.val :=
  (by decide +kernel : ∀ t : Fin grid0.N, _)

/-- The target row that block row `p` of point `t` is. -/
def rowOf (t : Fin cfg0.N) (p : Fin 512) : Fin 8192 :=
  ⟨t.val * 512 + p.val, by have h := t.isLt; have hN : cfg0.N = 16 := N_0; have hp := p.isLt; omega⟩

/-! ## The input blocks at a point -/

theorem blk_q (c : Dev nD) (t : Fin cfg0.N) (p : Fin 512) (d : Fin 2048) :
    iblk0 (V1 m ρ) c 0 t (ix2 p d) = Qa m c (ix2 (rowOf t p) d) := by
  show V1 m ρ c main_v1 (((cfg0.win 0).blk t).view.emb (ix2 p d)) = _
  rw [KHost.V1_v1]
  show Qa m c (((cfg0.win 0).blk t).view.emb (ix2 p d)) = _
  refine congrArg (Qa m c) (funext fun a => Fin.ext ?_)
  obtain ⟨e00, e01, -⟩ := idx_facts t
  match a with
  | ⟨0, _⟩ => show win0_0.index t (0 : Fin 2) * 512 + 1 * p.val = t.val * 512 + p.val; omega
  | ⟨1, _⟩ => show win0_0.index t (1 : Fin 2) * 2048 + 1 * d.val = d.val; omega

theorem blk_qc (c : Dev nD) (t : Fin cfg0.N) (p : Fin 512) :
    iblk0 (V1 m ρ) c 1 t (ix2 p (0 : Fin 1)) = qcorr (Qa m c) (rowOf t p) := by
  show V1 m ρ c main_v18 (((cfg0.win 1).blk t).view.emb (ix2 p (0 : Fin 1))) = _
  rw [KHost.V1_v18]
  refine Eq.trans (congrArg (KHost.hq (Qa m c)) (?_ : _ = ix2 (rowOf t p) (0 : Fin 1))) (KHost.hq_at (Qa m c) (rowOf t p) 0)
  funext a; apply Fin.ext
  obtain ⟨-, -, e10, e11, -⟩ := idx_facts t
  match a with
  | ⟨0, _⟩ => show win0_1.index t (0 : Fin 2) * 512 + 1 * p.val = t.val * 512 + p.val; omega
  | ⟨1, _⟩ => show win0_1.index t (1 : Fin 2) * 1 + 1 * 0 = 0; omega

theorem blk_p (c : Dev nD) (t : Fin cfg0.N) (k : Fin 1024) (d : Fin 2048) :
    iblk0 (V1 m ρ) c 2 t (ix2 k d) = Pa m c (ix2 k d) := by
  show V1 m ρ c main_v0 (((cfg0.win 2).blk t).view.emb (ix2 k d)) = _
  rw [KHost.V1_v0]
  show Pa m c (((cfg0.win 2).blk t).view.emb (ix2 k d)) = _
  refine congrArg (Pa m c) (funext fun a => Fin.ext ?_)
  obtain ⟨-, -, -, -, e20, e21, -⟩ := idx_facts t
  match a with
  | ⟨0, _⟩ => show win0_2.index t (0 : Fin 2) * 1024 + 1 * k.val = k.val; omega
  | ⟨1, _⟩ => show win0_2.index t (1 : Fin 2) * 2048 + 1 * d.val = d.val; omega

theorem blk_pc (c : Dev nD) (t : Fin cfg0.N) (k : Fin 1024) :
    iblk0 (V1 m ρ) c 3 t (ix2 (0 : Fin 1) k) = pcorr (Pa m c) k := by
  show V1 m ρ c main_v10 (((cfg0.win 3).blk t).view.emb (ix2 (0 : Fin 1) k)) = _
  rw [KHost.V1_v10]
  refine Eq.trans (congrArg (KHost.hp (Pa m c)) (?_ : _ = ix2 (0 : Fin 1) k)) (KHost.hp_at (Pa m c) 0 k)
  funext a; apply Fin.ext
  obtain ⟨-, -, -, -, -, -, e30, e31, -⟩ := idx_facts t
  match a with
  | ⟨0, _⟩ => show win0_3.index t (0 : Fin 2) * 1 + 1 * 0 = 0; omega
  | ⟨1, _⟩ => show win0_3.index t (1 : Fin 2) * 1024 + 1 * k.val = k.val; omega

/-- Block row `p` of point `t`, in all three outputs, is target row `rowOf t p` of the posterior. -/
theorem rows (c : Dev nD) (t : Fin cfg0.N) (p : Fin 512) :
    (∀ k : Fin 1024, k0_pay4 (F := Ideal) (iblk0 (V1 m ρ) c 0 t) (iblk0 (V1 m ρ) c 2 t) (iblk0 (V1 m ρ) c 1 t) (iblk0 (V1 m ρ) c 3 t) (ix2 p k)
        = post (Pa m c) (Qa m c) (rowOf t p) k)
    ∧ k0_pay5 (F := Ideal) (iblk0 (V1 m ρ) c 0 t) (iblk0 (V1 m ρ) c 2 t) (iblk0 (V1 m ρ) c 1 t) (iblk0 (V1 m ρ) c 3 t) (ix1 p)
        = conf (Pa m c) (Qa m c) (rowOf t p)
    ∧ k0_pay6 (F := Ideal) (iblk0 (V1 m ρ) c 0 t) (iblk0 (V1 m ρ) c 2 t) (iblk0 (V1 m ρ) c 1 t) (iblk0 (V1 m ρ) c 3 t) (ix1 p)
        = ent (Pa m c) (Qa m c) (rowOf t p) :=
  KBody.rows_of_block (Pa m c) (Qa m c) (iblk0 (V1 m ρ) c 0 t) (iblk0 (V1 m ρ) c 1 t) (iblk0 (V1 m ρ) c 2 t) (iblk0 (V1 m ρ) c 3 t)
    (rowOf t) (blk_q m ρ c t) (blk_qc m ρ c t) (blk_p m ρ c t) (blk_pc m ρ c t) p

/-! ## What a point writes back -/

theorem flushed4 (c : Dev nD) (t : Fin cfg0.N) :
    (dat0 (V1 m ρ) c).flushed 4 t = ((cfg0.win 4).blk t).view.read (Elt Ideal) (postG (Pa m c) (Qa m c)) := by
  show (cfg0.win 4).cut (grid0.coords t) ((dat0 (V1 m ρ) c).after 4 t) = _
  rw [after0_4]
  unfold out0_4
  rw [View.canon_unit_zero hz2]
  simp only [View.ld_unit_zero (S := S512x2048) hz2, View.ld_unit_zero (S := S1024x2048) hz2, View.ld_unit_zero (S := S512x1) hz2, View.ld_unit_zero (S := S1x1024) hz2]
  funext j
  obtain ⟨p, k, rfl⟩ : ∃ (p : Fin 512) (k : Fin 1024), j = ix2 p k := ⟨j 0, j 1, eq_ix2 j⟩
  refine ((rows m ρ c t p).1 k).trans ?_
  obtain ⟨-, -, -, -, -, -, -, -, e40, e41, -⟩ := idx_facts t
  show post (Pa m c) (Qa m c) (rowOf t p) k
      = post (Pa m c) (Qa m c) ((((cfg0.win 4).blk t).view.emb (ix2 p k)) 0) ((((cfg0.win 4).blk t).view.emb (ix2 p k)) 1)
  have r0 : rowOf t p = (((cfg0.win 4).blk t).view.emb (ix2 p k)) 0 :=
    Fin.ext (show t.val * 512 + p.val = win0_4.index t (0 : Fin 2) * 512 + 1 * p.val by omega)
  have r1 : k = (((cfg0.win 4).blk t).view.emb (ix2 p k)) 1 :=
    Fin.ext (show k.val = win0_4.index t (1 : Fin 2) * 1024 + 1 * k.val by omega)
  rw [← r0, ← r1]

theorem flushed5 (c : Dev nD) (t : Fin cfg0.N) :
    (dat0 (V1 m ρ) c).flushed 5 t = ((cfg0.win 5).blk t).view.read (Elt Ideal) (confG (Pa m c) (Qa m c)) := by
  show (cfg0.win 5).cut (grid0.coords t) ((dat0 (V1 m ρ) c).after 5 t) = _
  rw [after0_5]
  unfold out0_5
  rw [View.canon_unit_zero hz1]
  simp only [View.ld_unit_zero (S := S512x2048) hz2, View.ld_unit_zero (S := S1024x2048) hz2, View.ld_unit_zero (S := S512x1) hz2, View.ld_unit_zero (S := S1x1024) hz2]
  funext j
  obtain ⟨p, rfl⟩ : ∃ p : Fin 512, j = ix1 p := ⟨j 0, eq_ix1 j⟩
  refine ((rows m ρ c t p).2.1).trans ?_
  obtain ⟨-, -, -, -, -, -, -, -, -, -, e5, e6⟩ := idx_facts t
  show conf (Pa m c) (Qa m c) (rowOf t p) = conf (Pa m c) (Qa m c) ((((cfg0.win 5).blk t).view.emb (ix1 p)) 0)
  have r0 : rowOf t p = (((cfg0.win 5).blk t).view.emb (ix1 p)) 0 :=
    Fin.ext (show t.val * 512 + p.val = win0_5.index t (0 : Fin 1) * 512 + 1 * p.val by omega)
  rw [← r0]

theorem flushed6 (c : Dev nD) (t : Fin cfg0.N) :
    (dat0 (V1 m ρ) c).flushed 6 t = ((cfg0.win 6).blk t).view.read (Elt Ideal) (entG (Pa m c) (Qa m c)) := by
  show (cfg0.win 6).cut (grid0.coords t) ((dat0 (V1 m ρ) c).after 6 t) = _
  rw [after0_6]
  unfold out0_6
  rw [View.canon_unit_zero hz1]
  simp only [View.ld_unit_zero (S := S512x2048) hz2, View.ld_unit_zero (S := S1024x2048) hz2, View.ld_unit_zero (S := S512x1) hz2, View.ld_unit_zero (S := S1x1024) hz2]
  funext j
  obtain ⟨p, rfl⟩ : ∃ p : Fin 512, j = ix1 p := ⟨j 0, eq_ix1 j⟩
  refine ((rows m ρ c t p).2.2).trans ?_
  obtain ⟨-, -, -, -, -, -, -, -, -, -, e5, e6⟩ := idx_facts t
  show ent (Pa m c) (Qa m c) (rowOf t p) = ent (Pa m c) (Qa m c) ((((cfg0.win 6).blk t).view.emb (ix1 p)) 0)
  have r0 : rowOf t p = (((cfg0.win 6).blk t).view.emb (ix1 p)) 0 :=
    Fin.ext (show t.val * 512 + p.val = win0_6.index t (0 : Fin 1) * 512 + 1 * p.val by omega)
  rw [← r0]

/-! ## The blocks cover the arrays -/

theorem mem_blk4 (t : Fin cfg0.N) (i : S8192x1024.Idx) :
    i ∈ ((cfg0.win 4).blk t).view.set ↔ ∀ a : Fin 2, win0_4.index t a * S512x1024.size a ≤ (i a).val ∧ (i a).val < win0_4.index t a * S512x1024.size a + S512x1024.size a := by
  show i ∈ ((View.whole main_v19_0).slice (win0_4.rect t)).set ↔ _
  rw [View.set_slice_whole, Rect.mem_set_unit]
  exact Iff.rfl
theorem mem_blk5 (t : Fin cfg0.N) (i : S8192.Idx) :
    i ∈ ((cfg0.win 5).blk t).view.set ↔ ∀ a : Fin 1, win0_5.index t a * S512.size a ≤ (i a).val ∧ (i a).val < win0_5.index t a * S512.size a + S512.size a := by
  show i ∈ ((View.whole main_v19_1).slice (win0_5.rect t)).set ↔ _
  rw [View.set_slice_whole, Rect.mem_set_unit]
  exact Iff.rfl
theorem mem_blk6 (t : Fin cfg0.N) (i : S8192.Idx) :
    i ∈ ((cfg0.win 6).blk t).view.set ↔ ∀ a : Fin 1, win0_6.index t a * S512.size a ≤ (i a).val ∧ (i a).val < win0_6.index t a * S512.size a + S512.size a := by
  show i ∈ ((View.whole main_v19_2).slice (win0_6.rect t)).set ↔ _
  rw [View.set_slice_whole, Rect.mem_set_unit]
  exact Iff.rfl

/-- The point whose blocks hold target row `r`: `r / 512`. -/
theorem pointOf (r : Nat) (hr : r < 8192) : ∃ t : Fin cfg0.N, t.val = r / 512 :=
  ⟨⟨r / 512, by have hN : cfg0.N = 16 := N_0; omega⟩, rfl⟩

theorem cover4 (i : S8192x1024.Idx) : ∃ t : Fin cfg0.N, (cfg0.win 4).flush t = true ∧ i ∈ ((cfg0.win 4).blk t).view.set := by
  have hi0 : (i 0).val < 8192 := (i 0).isLt
  have hi1 : (i 1).val < 1024 := (i 1).isLt
  obtain ⟨t, ht⟩ := pointOf (i 0).val hi0
  obtain ⟨-, -, -, -, -, -, -, -, e40, e41, -⟩ := idx_facts t
  refine ⟨t, flush0_4 t, ?_⟩
  rw [mem_blk4]
  intro a
  match a with
  | ⟨0, _⟩ => show win0_4.index t (0 : Fin 2) * 512 ≤ (i 0).val ∧ (i 0).val < win0_4.index t (0 : Fin 2) * 512 + 512; omega
  | ⟨1, _⟩ => show win0_4.index t (1 : Fin 2) * 1024 ≤ (i 1).val ∧ (i 1).val < win0_4.index t (1 : Fin 2) * 1024 + 1024; omega
theorem cover5 (i : S8192.Idx) : ∃ t : Fin cfg0.N, (cfg0.win 5).flush t = true ∧ i ∈ ((cfg0.win 5).blk t).view.set := by
  have hi0 : (i 0).val < 8192 := (i 0).isLt
  obtain ⟨t, ht⟩ := pointOf (i 0).val hi0
  obtain ⟨-, -, -, -, -, -, -, -, -, -, e5, e6⟩ := idx_facts t
  refine ⟨t, flush0_5 t, ?_⟩
  rw [mem_blk5]
  intro a
  match a with
  | ⟨0, _⟩ => show win0_5.index t (0 : Fin 1) * 512 ≤ (i 0).val ∧ (i 0).val < win0_5.index t (0 : Fin 1) * 512 + 512; omega
theorem cover6 (i : S8192.Idx) : ∃ t : Fin cfg0.N, (cfg0.win 6).flush t = true ∧ i ∈ ((cfg0.win 6).blk t).view.set := by
  have hi0 : (i 0).val < 8192 := (i 0).isLt
  obtain ⟨t, ht⟩ := pointOf (i 0).val hi0
  obtain ⟨-, -, -, -, -, -, -, -, -, -, e5, e6⟩ := idx_facts t
  refine ⟨t, flush0_6 t, ?_⟩
  rw [mem_blk6]
  intro a
  match a with
  | ⟨0, _⟩ => show win0_6.index t (0 : Fin 1) * 512 ≤ (i 0).val ∧ (i 0).val < win0_6.index t (0 : Fin 1) * 512 + 512; omega

/-! ## The arrays after the call -/

theorem final4 (c : Dev nD) : (dat0 (V1 m ρ) c).arrAt 4 cfg0.N = postG (Pa m c) (Qa m c) :=
  (dat0 (V1 m ρ) c).arrAt_eq_of_cover 4 (postG (Pa m c) (Qa m c)) (fun t _ => flushed4 m ρ c t) cover4
theorem final5 (c : Dev nD) : (dat0 (V1 m ρ) c).arrAt 5 cfg0.N = confG (Pa m c) (Qa m c) :=
  (dat0 (V1 m ρ) c).arrAt_eq_of_cover 5 (confG (Pa m c) (Qa m c)) (fun t _ => flushed5 m ρ c t) cover5
theorem final6 (c : Dev nD) : (dat0 (V1 m ρ) c).arrAt 6 cfg0.N = entG (Pa m c) (Qa m c) :=
  (dat0 (V1 m ρ) c).arrAt_eq_of_cover 6 (entG (Pa m c) (Qa m c)) (fun t _ => flushed6 m ρ c t) cover6

end Cert.KernelIdeal.KBlocks0

end
-- ==== Proof.KBlocks1.lean ====
/-
  The second call: its three output arrays after the pipeline, as functions of the modality's arguments.

  The grid has 16 points; point `t` reads target rows `512 t … 512 t + 511` (with their collected terms), all the
  contexts, and writes back rows `512 t …` of the posterior and entries `512 t …` of the confidence and the
  entropy. What a point writes back is therefore a block of ONE whole-array function (`postG`, `confG`, `entG` of
  the two arguments), and the 16 blocks cover each array, so each array ends holding that function.
-/
import proofs.«108093_j38130719653971_2_alg».proof.Proof.KHost
import proofs.«108093_j38130719653971_2_alg».proof.Proof.KBlock

set_option maxRecDepth 16384

noncomputable section

open scoped BigOperators

namespace Cert.KernelIdeal.KBlocks1

open Cert.KernelIdeal Cert.KernelIdeal.Gen Cert.Posterior
open Idealize.ShloMosaic Idealize.ShloMosaic.TcCoe Idealize.SL.Sem
open Idealize.ShloMosaic.ValueIdx
open Idealize.ShloMosaic.Pipeline (Dat Cfg Window)

variable (m : (ℓ : Loc nD τ sig) → Buf (Elt Ideal) ℓ) (ρ : Dev nD → PrngReg)

/-- The modality's context array and target array, as launched. -/
abbrev Pa (c : Dev nD) : ShP.Idx → EReal := m ((c : Thread nD τ).loc main_arg1)
abbrev Qa (c : Dev nD) : ShQ.Idx → EReal := m ((c : Thread nD τ).loc main_arg3)

theorem hz2 : (![0, 0] : Fin 2 → Nat) = fun _ => 0 := funext fun a => by fin_cases a <;> rfl
theorem hz1 : (![0] : Fin 1 → Nat) = fun _ => 0 := funext fun a => by fin_cases a <;> rfl

/-- The printed index maps over the grid: the target-side windows and the outputs move with the point, the
    context-side windows stay at block 0. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = t.val ∧ win1_4.index t (1 : Fin 2) = 0
    ∧ win1_5.index t (0 : Fin 1) = t.val ∧ win1_6.index t (0 : Fin 1) = t.val :=
  (by decide +kernel : ∀ t : Fin grid1.N, _)

/-- The target row that block row `p` of point `t` is. -/
def rowOf (t : Fin cfg1.N) (p : Fin 512) : Fin 8192 :=
  ⟨t.val * 512 + p.val, by have h := t.isLt; have hN : cfg1.N = 16 := N_1; have hp := p.isLt; omega⟩

/-! ## The input blocks at a point -/

theorem blk_q (c : Dev nD) (t : Fin cfg1.N) (p : Fin 512) (d : Fin 2048) :
    iblk1 (V3 m ρ) c 0 t (ix2 p d) = Qa m c (ix2 (rowOf t p) d) := by
  show V3 m ρ c main_v21 (((cfg1.win 0).blk t).view.emb (ix2 p d)) = _
  rw [KHost.V3_v21]
  show Qa m c (((cfg1.win 0).blk t).view.emb (ix2 p d)) = _
  refine congrArg (Qa m c) (funext fun a => Fin.ext ?_)
  obtain ⟨e00, e01, -⟩ := idx_facts t
  match a with
  | ⟨0, _⟩ => show win1_0.index t (0 : Fin 2) * 512 + 1 * p.val = t.val * 512 + p.val; omega
  | ⟨1, _⟩ => show win1_0.index t (1 : Fin 2) * 2048 + 1 * d.val = d.val; omega

theorem blk_qc (c : Dev nD) (t : Fin cfg1.N) (p : Fin 512) :
    iblk1 (V3 m ρ) c 1 t (ix2 p (0 : Fin 1)) = qcorr (Qa m c) (rowOf t p) := by
  show V3 m ρ c main_v38 (((cfg1.win 1).blk t).view.emb (ix2 p (0 : Fin 1))) = _
  rw [KHost.V3_v38]
  refine Eq.trans (congrArg (KHost.hq (Qa m c)) (?_ : _ = ix2 (rowOf t p) (0 : Fin 1))) (KHost.hq_at (Qa m c) (rowOf t p) 0)
  funext a; apply Fin.ext
  obtain ⟨-, -, e10, e11, -⟩ := idx_facts t
  match a with
  | ⟨0, _⟩ => show win1_1.index t (0 : Fin 2) * 512 + 1 * p.val = t.val * 512 + p.val; omega
  | ⟨1, _⟩ => show win1_1.index t (1 : Fin 2) * 1 + 1 * 0 = 0; omega

theorem blk_p (c : Dev nD) (t : Fin cfg1.N) (k : Fin 1024) (d : Fin 2048) :
    iblk1 (V3 m ρ) c 2 t (ix2 k d) = Pa m c (ix2 k d) := by
  show V3 m ρ c main_v20 (((cfg1.win 2).blk t).view.emb (ix2 k d)) = _
  rw [KHost.V3_v20]
  show Pa m c (((cfg1.win 2).blk t).view.emb (ix2 k d)) = _
  refine congrArg (Pa m c) (funext fun a => Fin.ext ?_)
  obtain ⟨-, -, -, -, e20, e21, -⟩ := idx_facts t
  match a with
  | ⟨0, _⟩ => show win1_2.index t (0 : Fin 2) * 1024 + 1 * k.val = k.val; omega
  | ⟨1, _⟩ => show win1_2.index t (1 : Fin 2) * 2048 + 1 * d.val = d.val; omega

theorem blk_pc (c : Dev nD) (t : Fin cfg1.N) (k : Fin 1024) :
    iblk1 (V3 m ρ) c 3 t (ix2 (0 : Fin 1) k) = pcorr (Pa m c) k := by
  show V3 m ρ c main_v30 (((cfg1.win 3).blk t).view.emb (ix2 (0 : Fin 1) k)) = _
  rw [KHost.V3_v30]
  refine Eq.trans (congrArg (KHost.hp (Pa m c)) (?_ : _ = ix2 (0 : Fin 1) k)) (KHost.hp_at (Pa m c) 0 k)
  funext a; apply Fin.ext
  obtain ⟨-, -, -, -, -, -, e30, e31, -⟩ := idx_facts t
  match a with
  | ⟨0, _⟩ => show win1_3.index t (0 : Fin 2) * 1 + 1 * 0 = 0; omega
  | ⟨1, _⟩ => show win1_3.index t (1 : Fin 2) * 1024 + 1 * k.val = k.val; omega

/-- Block row `p` of point `t`, in all three outputs, is target row `rowOf t p` of the posterior. -/
theorem rows (c : Dev nD) (t : Fin cfg1.N) (p : Fin 512) :
    (∀ k : Fin 1024, k1_pay4 (F := Ideal) (iblk1 (V3 m ρ) c 0 t) (iblk1 (V3 m ρ) c 2 t) (iblk1 (V3 m ρ) c 1 t) (iblk1 (V3 m ρ) c 3 t) (ix2 p k)
        = post (Pa m c) (Qa m c) (rowOf t p) k)
    ∧ k1_pay5 (F := Ideal) (iblk1 (V3 m ρ) c 0 t) (iblk1 (V3 m ρ) c 2 t) (iblk1 (V3 m ρ) c 1 t) (iblk1 (V3 m ρ) c 3 t) (ix1 p)
        = conf (Pa m c) (Qa m c) (rowOf t p)
    ∧ k1_pay6 (F := Ideal) (iblk1 (V3 m ρ) c 0 t) (iblk1 (V3 m ρ) c 2 t) (iblk1 (V3 m ρ) c 1 t) (iblk1 (V3 m ρ) c 3 t) (ix1 p)
        = ent (Pa m c) (Qa m c) (rowOf t p) :=
  KBody.rows_of_block' (Pa m c) (Qa m c) (iblk1 (V3 m ρ) c 0 t) (iblk1 (V3 m ρ) c 1 t) (iblk1 (V3 m ρ) c 2 t) (iblk1 (V3 m ρ) c 3 t)
    (rowOf t) (blk_q m ρ c t) (blk_qc m ρ c t) (blk_p m ρ c t) (blk_pc m ρ c t) p

/-! ## What a point writes back -/

theorem flushed4 (c : Dev nD) (t : Fin cfg1.N) :
    (dat1 (V3 m ρ) c).flushed 4 t = ((cfg1.win 4).blk t).view.read (Elt Ideal) (postG (Pa m c) (Qa m c)) := by
  show (cfg1.win 4).cut (grid1.coords t) ((dat1 (V3 m ρ) c).after 4 t) = _
  rw [after1_4]
  unfold out1_4
  rw [View.canon_unit_zero hz2]
  simp only [View.ld_unit_zero (S := S512x2048) hz2, View.ld_unit_zero (S := S1024x2048) hz2, View.ld_unit_zero (S := S512x1) hz2, View.ld_unit_zero (S := S1x1024) hz2]
  funext j
  obtain ⟨p, k, rfl⟩ : ∃ (p : Fin 512) (k : Fin 1024), j = ix2 p k := ⟨j 0, j 1, eq_ix2 j⟩
  refine ((rows m ρ c t p).1 k).trans ?_
  obtain ⟨-, -, -, -, -, -, -, -, e40, e41, -⟩ := idx_facts t
  show post (Pa m c) (Qa m c) (rowOf t p) k
      = post (Pa m c) (Qa m c) ((((cfg1.win 4).blk t).view.emb (ix2 p k)) 0) ((((cfg1.win 4).blk t).view.emb (ix2 p k)) 1)
  have r0 : rowOf t p = (((cfg1.win 4).blk t).view.emb (ix2 p k)) 0 :=
    Fin.ext (show t.val * 512 + p.val = win1_4.index t (0 : Fin 2) * 512 + 1 * p.val by omega)
  have r1 : k = (((cfg1.win 4).blk t).view.emb (ix2 p k)) 1 :=
    Fin.ext (show k.val = win1_4.index t (1 : Fin 2) * 1024 + 1 * k.val by omega)
  rw [← r0, ← r1]

theorem flushed5 (c : Dev nD) (t : Fin cfg1.N) :
    (dat1 (V3 m ρ) c).flushed 5 t = ((cfg1.win 5).blk t).view.read (Elt Ideal) (confG (Pa m c) (Qa m c)) := by
  show (cfg1.win 5).cut (grid1.coords t) ((dat1 (V3 m ρ) c).after 5 t) = _
  rw [after1_5]
  unfold out1_5
  rw [View.canon_unit_zero hz1]
  simp only [View.ld_unit_zero (S := S512x2048) hz2, View.ld_unit_zero (S := S1024x2048) hz2, View.ld_unit_zero (S := S512x1) hz2, View.ld_unit_zero (S := S1x1024) hz2]
  funext j
  obtain ⟨p, rfl⟩ : ∃ p : Fin 512, j = ix1 p := ⟨j 0, eq_ix1 j⟩
  refine ((rows m ρ c t p).2.1).trans ?_
  obtain ⟨-, -, -, -, -, -, -, -, -, -, e5, e6⟩ := idx_facts t
  show conf (Pa m c) (Qa m c) (rowOf t p) = conf (Pa m c) (Qa m c) ((((cfg1.win 5).blk t).view.emb (ix1 p)) 0)
  have r0 : rowOf t p = (((cfg1.win 5).blk t).view.emb (ix1 p)) 0 :=
    Fin.ext (show t.val * 512 + p.val = win1_5.index t (0 : Fin 1) * 512 + 1 * p.val by omega)
  rw [← r0]

theorem flushed6 (c : Dev nD) (t : Fin cfg1.N) :
    (dat1 (V3 m ρ) c).flushed 6 t = ((cfg1.win 6).blk t).view.read (Elt Ideal) (entG (Pa m c) (Qa m c)) := by
  show (cfg1.win 6).cut (grid1.coords t) ((dat1 (V3 m ρ) c).after 6 t) = _
  rw [after1_6]
  unfold out1_6
  rw [View.canon_unit_zero hz1]
  simp only [View.ld_unit_zero (S := S512x2048) hz2, View.ld_unit_zero (S := S1024x2048) hz2, View.ld_unit_zero (S := S512x1) hz2, View.ld_unit_zero (S := S1x1024) hz2]
  funext j
  obtain ⟨p, rfl⟩ : ∃ p : Fin 512, j = ix1 p := ⟨j 0, eq_ix1 j⟩
  refine ((rows m ρ c t p).2.2).trans ?_
  obtain ⟨-, -, -, -, -, -, -, -, -, -, e5, e6⟩ := idx_facts t
  show ent (Pa m c) (Qa m c) (rowOf t p) = ent (Pa m c) (Qa m c) ((((cfg1.win 6).blk t).view.emb (ix1 p)) 0)
  have r0 : rowOf t p = (((cfg1.win 6).blk t).view.emb (ix1 p)) 0 :=
    Fin.ext (show t.val * 512 + p.val = win1_6.index t (0 : Fin 1) * 512 + 1 * p.val by omega)
  rw [← r0]

/-! ## The blocks cover the arrays -/

theorem mem_blk4 (t : Fin cfg1.N) (i : S8192x1024.Idx) :
    i ∈ ((cfg1.win 4).blk t).view.set ↔ ∀ a : Fin 2, win1_4.index t a * S512x1024.size a ≤ (i a).val ∧ (i a).val < win1_4.index t a * S512x1024.size a + S512x1024.size a := by
  show i ∈ ((View.whole main_v39_0).slice (win1_4.rect t)).set ↔ _
  rw [View.set_slice_whole, Rect.mem_set_unit]
  exact Iff.rfl
theorem mem_blk5 (t : Fin cfg1.N) (i : S8192.Idx) :
    i ∈ ((cfg1.win 5).blk t).view.set ↔ ∀ a : Fin 1, win1_5.index t a * S512.size a ≤ (i a).val ∧ (i a).val < win1_5.index t a * S512.size a + S512.size a := by
  show i ∈ ((View.whole main_v39_1).slice (win1_5.rect t)).set ↔ _
  rw [View.set_slice_whole, Rect.mem_set_unit]
  exact Iff.rfl
theorem mem_blk6 (t : Fin cfg1.N) (i : S8192.Idx) :
    i ∈ ((cfg1.win 6).blk t).view.set ↔ ∀ a : Fin 1, win1_6.index t a * S512.size a ≤ (i a).val ∧ (i a).val < win1_6.index t a * S512.size a + S512.size a := by
  show i ∈ ((View.whole main_v39_2).slice (win1_6.rect t)).set ↔ _
  rw [View.set_slice_whole, Rect.mem_set_unit]
  exact Iff.rfl

/-- The point whose blocks hold target row `r`: `r / 512`. -/
theorem pointOf (r : Nat) (hr : r < 8192) : ∃ t : Fin cfg1.N, t.val = r / 512 :=
  ⟨⟨r / 512, by have hN : cfg1.N = 16 := N_1; omega⟩, rfl⟩

theorem cover4 (i : S8192x1024.Idx) : ∃ t : Fin cfg1.N, (cfg1.win 4).flush t = true ∧ i ∈ ((cfg1.win 4).blk t).view.set := by
  have hi0 : (i 0).val < 8192 := (i 0).isLt
  have hi1 : (i 1).val < 1024 := (i 1).isLt
  obtain ⟨t, ht⟩ := pointOf (i 0).val hi0
  obtain ⟨-, -, -, -, -, -, -, -, e40, e41, -⟩ := idx_facts t
  refine ⟨t, flush1_4 t, ?_⟩
  rw [mem_blk4]
  intro a
  match a with
  | ⟨0, _⟩ => show win1_4.index t (0 : Fin 2) * 512 ≤ (i 0).val ∧ (i 0).val < win1_4.index t (0 : Fin 2) * 512 + 512; omega
  | ⟨1, _⟩ => show win1_4.index t (1 : Fin 2) * 1024 ≤ (i 1).val ∧ (i 1).val < win1_4.index t (1 : Fin 2) * 1024 + 1024; omega
theorem cover5 (i : S8192.Idx) : ∃ t : Fin cfg1.N, (cfg1.win 5).flush t = true ∧ i ∈ ((cfg1.win 5).blk t).view.set := by
  have hi0 : (i 0).val < 8192 := (i 0).isLt
  obtain ⟨t, ht⟩ := pointOf (i 0).val hi0
  obtain ⟨-, -, -, -, -, -, -, -, -, -, e5, e6⟩ := idx_facts t
  refine ⟨t, flush1_5 t, ?_⟩
  rw [mem_blk5]
  intro a
  match a with
  | ⟨0, _⟩ => show win1_5.index t (0 : Fin 1) * 512 ≤ (i 0).val ∧ (i 0).val < win1_5.index t (0 : Fin 1) * 512 + 512; omega
theorem cover6 (i : S8192.Idx) : ∃ t : Fin cfg1.N, (cfg1.win 6).flush t = true ∧ i ∈ ((cfg1.win 6).blk t).view.set := by
  have hi0 : (i 0).val < 8192 := (i 0).isLt
  obtain ⟨t, ht⟩ := pointOf (i 0).val hi0
  obtain ⟨-, -, -, -, -, -, -, -, -, -, e5, e6⟩ := idx_facts t
  refine ⟨t, flush1_6 t, ?_⟩
  rw [mem_blk6]
  intro a
  match a with
  | ⟨0, _⟩ => show win1_6.index t (0 : Fin 1) * 512 ≤ (i 0).val ∧ (i 0).val < win1_6.index t (0 : Fin 1) * 512 + 512; omega

/-! ## The arrays after the call -/

theorem final4 (c : Dev nD) : (dat1 (V3 m ρ) c).arrAt 4 cfg1.N = postG (Pa m c) (Qa m c) :=
  (dat1 (V3 m ρ) c).arrAt_eq_of_cover 4 (postG (Pa m c) (Qa m c)) (fun t _ => flushed4 m ρ c t) cover4
theorem final5 (c : Dev nD) : (dat1 (V3 m ρ) c).arrAt 5 cfg1.N = confG (Pa m c) (Qa m c) :=
  (dat1 (V3 m ρ) c).arrAt_eq_of_cover 5 (confG (Pa m c) (Qa m c)) (fun t _ => flushed5 m ρ c t) cover5
theorem final6 (c : Dev nD) : (dat1 (V3 m ρ) c).arrAt 6 cfg1.N = entG (Pa m c) (Qa m c) :=
  (dat1 (V3 m ρ) c).arrAt_eq_of_cover 6 (entG (Pa m c) (Qa m c)) (fun t _ => flushed6 m ρ c t) cover6

end Cert.KernelIdeal.KBlocks1

end
-- ==== Proof.Select.lean ====
/-
  The selection mask: target `i` is selected when the first modality's entropy and confidence both exceed the
  second's. Both programs end with these two comparisons and their conjunction on the four per-target vectors.
-/
import proofs.«108093_j38130719653971_2_alg».proof.Proof.Spec

noncomputable section

namespace Cert.Posterior

open Idealize.ShloMosaic

def sel (h1 c1 h2 c2 : FVec Ideal ShV .f32) : IVec ShV 1 :=
  andi (cmpf (F := Ideal) .ogt h1 h2) (cmpf (F := Ideal) .ogt c1 c2)

end Cert.Posterior

end
-- ==== Proof.KValue.lean ====
/-
  The idealized kernel's seven results.

  The last boundary's contents at each result buffer, walked back through the fold: the two comparisons and their
  conjunction write only their own buffers, the second call writes only its own seven arrays, the host operations
  between the calls write none of the first call's outputs; so the first modality's three results are what the
  first call's pipeline left, the second's what the second call's left, and the mask is the two comparisons of
  those. With the run that names every buffer's final contents this gives the kernel's run with each result at its
  function of the four arguments.
-/
import proofs.«108093_j38130719653971_2_alg».proof.Proof.KRun
import proofs.«108093_j38130719653971_2_alg».proof.Proof.KBlocks0
import proofs.«108093_j38130719653971_2_alg».proof.Proof.KBlocks1
import proofs.«108093_j38130719653971_2_alg».proof.Proof.Select

set_option maxRecDepth 16384

noncomputable section

namespace Cert.KernelIdeal.KValue

open Cert.KernelIdeal Cert.KernelIdeal.Gen Cert.Posterior
open Idealize.ShloMosaic Idealize.ShloMosaic.TcCoe Idealize.ShloMosaic.Tactic Idealize.SL.Sem Idealize.ShloMosaic.StableHlo

variable (m : (ℓ : Loc nD τ sig) → Buf (Elt Ideal) ℓ) (ρ : Dev nD → PrngReg)

/-- The four argument arrays of core `c`, as launched. -/
abbrev P0 (c : Dev nD) : ShP.Idx → EReal := m ((c : Thread nD τ).loc main_arg0)
abbrev P1 (c : Dev nD) : ShP.Idx → EReal := m ((c : Thread nD τ).loc main_arg1)
abbrev Q0 (c : Dev nD) : ShQ.Idx → EReal := m ((c : Thread nD τ).loc main_arg2)
abbrev Q1 (c : Dev nD) : ShQ.Idx → EReal := m ((c : Thread nD τ).loc main_arg3)

/-! ## The first call's outputs at the second call's exit -/

theorem W3_v19_0 (c : Dev nD) : W3 m ρ c (Proc.devRef .tc main_v19_0) = W2 m ρ c (Proc.devRef .tc main_v19_0) :=
  StableHlo.after_of_forall_not_mem (b := Proc.devRef .tc main_v19_0) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W3_v19_1 (c : Dev nD) : W3 m ρ c (Proc.devRef .tc main_v19_1) = W2 m ρ c (Proc.devRef .tc main_v19_1) :=
  StableHlo.after_of_forall_not_mem (b := Proc.devRef .tc main_v19_1) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
theorem W3_v19_2 (c : Dev nD) : W3 m ρ c (Proc.devRef .tc main_v19_2) = W2 m ρ c (Proc.devRef .tc main_v19_2) :=
  StableHlo.after_of_forall_not_mem (b := Proc.devRef .tc main_v19_2) _ _ (List.forall_iff_forall_mem.mp (by
          simp only [hostOps1, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))

theorem W4_v19_0 (c : Dev nD) : (W4 m ρ c (Proc.devRef .tc main_v19_0) : ShO.Idx → EReal) = postG (P0 m c) (Q0 m c) :=
  (((W4_of_ne m ρ c main_v19_0 (by decide)).trans (W3_v19_0 m ρ c)).trans (W2_arr m ρ c 4)).trans (KBlocks0.final4 m ρ c)
theorem W4_v19_1 (c : Dev nD) : (W4 m ρ c (Proc.devRef .tc main_v19_1) : ShV.Idx → EReal) = confG (P0 m c) (Q0 m c) :=
  (((W4_of_ne m ρ c main_v19_1 (by decide)).trans (W3_v19_1 m ρ c)).trans (W2_arr m ρ c 5)).trans (KBlocks0.final5 m ρ c)
theorem W4_v19_2 (c : Dev nD) : (W4 m ρ c (Proc.devRef .tc main_v19_2) : ShV.Idx → EReal) = entG (P0 m c) (Q0 m c) :=
  (((W4_of_ne m ρ c main_v19_2 (by decide)).trans (W3_v19_2 m ρ c)).trans (W2_arr m ρ c 6)).trans (KBlocks0.final6 m ρ c)

/-! ## The second call's outputs at its exit -/

theorem W4_v39_0 (c : Dev nD) : (W4 m ρ c (Proc.devRef .tc main_v39_0) : ShO.Idx → EReal) = postG (P1 m c) (Q1 m c) :=
  (W4_arr m ρ c 4).trans (KBlocks1.final4 m ρ c)
theorem W4_v39_1 (c : Dev nD) : (W4 m ρ c (Proc.devRef .tc main_v39_1) : ShV.Idx → EReal) = confG (P1 m c) (Q1 m c) :=
  (W4_arr m ρ c 5).trans (KBlocks1.final5 m ρ c)
theorem W4_v39_2 (c : Dev nD) : (W4 m ρ c (Proc.devRef .tc main_v39_2) : ShV.Idx → EReal) = entG (P1 m c) (Q1 m c) :=
  (W4_arr m ρ c 6).trans (KBlocks1.final6 m ρ c)

/-! ## The results at the return -/

theorem W5_v19_0 (c : Dev nD) : (W5 m ρ c (Proc.devRef .tc main_v19_0) : ShO.Idx → EReal) = postG (P0 m c) (Q0 m c) :=
  (StableHlo.after_of_forall_not_mem (b := Proc.devRef .tc main_v19_0) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W4_v19_0 m ρ c)
theorem W5_v19_1 (c : Dev nD) : (W5 m ρ c (Proc.devRef .tc main_v19_1) : ShV.Idx → EReal) = confG (P0 m c) (Q0 m c) :=
  (StableHlo.after_of_forall_not_mem (b := Proc.devRef .tc main_v19_1) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W4_v19_1 m ρ c)
theorem W5_v19_2 (c : Dev nD) : (W5 m ρ c (Proc.devRef .tc main_v19_2) : ShV.Idx → EReal) = entG (P0 m c) (Q0 m c) :=
  (StableHlo.after_of_forall_not_mem (b := Proc.devRef .tc main_v19_2) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W4_v19_2 m ρ c)
theorem W5_v39_0 (c : Dev nD) : (W5 m ρ c (Proc.devRef .tc main_v39_0) : ShO.Idx → EReal) = postG (P1 m c) (Q1 m c) :=
  (StableHlo.after_of_forall_not_mem (b := Proc.devRef .tc main_v39_0) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W4_v39_0 m ρ c)
theorem W5_v39_1 (c : Dev nD) : (W5 m ρ c (Proc.devRef .tc main_v39_1) : ShV.Idx → EReal) = confG (P1 m c) (Q1 m c) :=
  (StableHlo.after_of_forall_not_mem (b := Proc.devRef .tc main_v39_1) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W4_v39_1 m ρ c)
theorem W5_v39_2 (c : Dev nD) : (W5 m ρ c (Proc.devRef .tc main_v39_2) : ShV.Idx → EReal) = entG (P1 m c) (Q1 m c) :=
  (StableHlo.after_of_forall_not_mem (b := Proc.devRef .tc main_v39_2) _ _ (List.forall_iff_forall_mem.mp (by
          simp only [hostOps2, List.flatten_cons, List.flatten_nil, List.append_nil, List.cons_append, List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))).trans (W4_v39_2 m ρ c)

/-- The mask: the two comparisons of the calls' entropies and confidences, and their conjunction. -/
theorem W5_v42 (c : Dev nD) : (W5 m ρ c (Proc.devRef .tc main_v42) : ShV.Idx → BitVec 1)
    = sel (entG (P0 m c) (Q0 m c)) (confG (P0 m c) (Q0 m c)) (entG (P1 m c) (Q1 m c)) (confG (P1 m c) (Q1 m c)) := by
  show StableHlo.after hostOps2 (W4 m ρ c) (Proc.devRef .tc main_v42) = _
  after_results
  unfold sel
  exact congrArg₂ andi
    (congrArg₂ (cmpf (F := Ideal) .ogt) (W4_v19_2 m ρ c) (W4_v39_2 m ρ c))
    (congrArg₂ (cmpf (F := Ideal) .ogt) (W4_v19_1 m ρ c) (W4_v39_1 m ρ c))

/-! ## The run -/

/-- Every weakly fair execution of the idealized kernel terminates, nothing faulting, with each of the seven results
    at its function of the four arguments and the arguments as launched. -/
theorem run : θ_run defs (onTc (τ := τ) (main (F := Ideal))) ⟨m, fun _ => 0, ρ⟩ (fun r => ∀ c : Dev nD,
      (r.2.mem ((c.tc : Thread nD τ).loc main_v19_0) : ShO.Idx → EReal) = postG (P0 m c) (Q0 m c)
      ∧ (r.2.mem ((c.tc : Thread nD τ).loc main_v19_1) : ShV.Idx → EReal) = confG (P0 m c) (Q0 m c)
      ∧ (r.2.mem ((c.tc : Thread nD τ).loc main_v19_2) : ShV.Idx → EReal) = entG (P0 m c) (Q0 m c)
      ∧ (r.2.mem ((c.tc : Thread nD τ).loc main_v39_0) : ShO.Idx → EReal) = postG (P1 m c) (Q1 m c)
      ∧ (r.2.mem ((c.tc : Thread nD τ).loc main_v39_1) : ShV.Idx → EReal) = confG (P1 m c) (Q1 m c)
      ∧ (r.2.mem ((c.tc : Thread nD τ).loc main_v39_2) : ShV.Idx → EReal) = entG (P1 m c) (Q1 m c)
      ∧ (r.2.mem ((c.tc : Thread nD τ).loc main_v42) : ShV.Idx → BitVec 1)
          = sel (entG (P0 m c) (Q0 m c)) (confG (P0 m c) (Q0 m c)) (entG (P1 m c) (Q1 m c)) (confG (P1 m c) (Q1 m c))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c main_v19_0 (by decide)).trans (W5_v19_0 m ρ c),
     (h c main_v19_1 (by decide)).trans (W5_v19_1 m ρ c),
     (h c main_v19_2 (by decide)).trans (W5_v19_2 m ρ c),
     (h c main_v39_0 (by decide)).trans (W5_v39_0 m ρ c),
     (h c main_v39_1 (by decide)).trans (W5_v39_1 m ρ c),
     (h c main_v39_2 (by decide)).trans (W5_v39_2 m ρ c),
     (h c main_v42 (by decide)).trans (W5_v42 m ρ c),
     (h c main_arg0 (by decide)).trans (W5_main_arg0 m ρ c),
     (h c main_arg1 (by decide)).trans (W5_main_arg1 m ρ c),
     (h c main_arg2 (by decide)).trans (W5_main_arg2 m ρ c),
     (h c main_arg3 (by decide)).trans (W5_main_arg3 m ρ c)⟩)
    (KVal.run_all m ρ)

end Cert.KernelIdeal.KValue

end
-- ==== Proof.RefValue.lean ====
/-
  The reference program's stages, read at an index, are the direct spelling of the posterior.

  For each modality the row terms (squared norms, row sums, inner products) are identified first at a
  row, then spread over the (q, c) grid; the distance is assembled in the order
  ((‖Q q‖² + ‖P c‖²) − 2 ⟨Q q, P c⟩) + (2ε (Σ Q q − Σ P c) + D ε²), clamped at zero and rooted; the weight is
  the exponential of its negation; the row sum starts from the zero literal; the posterior is the
  quotient; the confidence is the fold of the maximum over a row from −∞; the entropy is the negated
  sum of posterior times its logarithm. The second modality is the same text on the other two arguments.
-/
import proofs.«108093_j38130719653971_2_alg».proof.Proof.Gen.ReferenceIdeal.Read
import proofs.«108093_j38130719653971_2_alg».proof.Proof.Spec

noncomputable section

open scoped BigOperators

namespace Cert.ReferenceIdeal.RefValue

open Cert.ReferenceIdeal Cert.ReferenceIdeal.Gen Cert.ReferenceIdeal.Read Cert.Posterior Idealize.ShloMosaic Idealize.ShloMosaic.ValueIdx

/-! ## First modality: the row terms -/

/-- Stage 1 at a target row is the squared norm of that row. -/
theorem v1_at (x2 : FVec Ideal S8192x2048 .f32) (q : Fin 8192) :
    val_main_v1 (F := Ideal) x2 (ix1 q) = sqQ x2 q := by
  rw [val_main_v1_apply]
  unfold sqQ
  refine congrArg₂ (· + ·) rfl (Finset.sum_congr rfl fun k _ => ?_)
  have e : idx_main_v1 (ix1 q) k = ix2 q k :=
    funext fun a => Fin.ext (by match a with | ⟨0, _⟩ => rfl | ⟨1, _⟩ => rfl)
  exact congrArg (fun i => x2 i * x2 i) e

/-- Stage 4 at a context row is the squared norm of that row. -/
theorem v4_at (x0 : FVec Ideal S1024x2048 .f32) (c : Fin 1024) :
    val_main_v4 (F := Ideal) x0 (ix1 c) = sqP x0 c := by
  rw [val_main_v4_apply]
  unfold sqP
  refine congrArg₂ (· + ·) rfl (Finset.sum_congr rfl fun k _ => ?_)
  have e : idx_main_v4 (ix1 c) k = ix2 c k :=
    funext fun a => Fin.ext (by match a with | ⟨0, _⟩ => rfl | ⟨1, _⟩ => rfl)
  exact congrArg (fun i => x0 i * x0 i) e

/-- Stage 5 at (q, c) is the inner product of target row q and context row c. -/
theorem v5_at (x0 : FVec Ideal S1024x2048 .f32) (x2 : FVec Ideal S8192x2048 .f32) (q : Fin 8192) (c : Fin 1024) :
    val_main_v5 (F := Ideal) x0 x2 (ix2 q c) = cross x0 x2 q c := by
  rw [val_main_v5_apply]
  unfold cross
  refine Finset.sum_congr rfl fun k _ => ?_
  have el : lidx_main_v5 (ix2 q c) k = ix2 q k :=
    funext fun a => Fin.ext (by match a with | ⟨0, _⟩ => rfl | ⟨1, _⟩ => rfl)
  have er : ridx_main_v5 (ix2 q c) k = ix2 c k :=
    funext fun a => Fin.ext (by match a with | ⟨0, _⟩ => rfl | ⟨1, _⟩ => rfl)
  rw [el, er]

/-- Stage 6 at a target row is the sum of that row. -/
theorem v6_at (x2 : FVec Ideal S8192x2048 .f32) (q : Fin 8192) :
    val_main_v6 (F := Ideal) x2 (ix1 q) = suQ x2 q := by
  rw [val_main_v6_apply]
  unfold suQ
  refine congrArg₂ (· + ·) rfl (Finset.sum_congr rfl fun k _ => ?_)
  have e : idx_main_v6 (ix1 q) k = ix2 q k :=
    funext fun a => Fin.ext (by match a with | ⟨0, _⟩ => rfl | ⟨1, _⟩ => rfl)
  exact congrArg x2 e

/-- Stage 8 at a context row is the sum of that row. -/
theorem v8_at (x0 : FVec Ideal S1024x2048 .f32) (c : Fin 1024) :
    val_main_v8 (F := Ideal) x0 (ix1 c) = suP x0 c := by
  rw [val_main_v8_apply]
  unfold suP
  refine congrArg₂ (· + ·) rfl (Finset.sum_congr rfl fun k _ => ?_)
  have e : idx_main_v8 (ix1 c) k = ix2 c k :=
    funext fun a => Fin.ext (by match a with | ⟨0, _⟩ => rfl | ⟨1, _⟩ => rfl)
  exact congrArg x0 e

/-! ## First modality: the row terms spread over the (q, c) grid -/

/-- Stage 18 at (q, c) is the squared norm of target row q. -/
theorem v18_at (x2 : FVec Ideal S8192x2048 .f32) (q : Fin 8192) (c : Fin 1024) :
    val_main_v18 (F := Ideal) x2 (ix2 q c) = sqQ x2 q := by
  rw [val_main_v18_apply, val_main_v2_apply]
  refine Eq.trans (congrArg (val_main_v1 (F := Ideal) x2) ?_) (v1_at x2 q)
  exact funext fun a => Fin.ext (by match a with | ⟨0, _⟩ => rfl)

/-- Stage 19 at (q, c) is the squared norm of context row c. -/
theorem v19_at (x0 : FVec Ideal S1024x2048 .f32) (q : Fin 8192) (c : Fin 1024) :
    val_main_v19 (F := Ideal) x0 (ix2 q c) = sqP x0 c := by
  rw [val_main_v19_apply, val_main_v17_apply]
  refine Eq.trans (congrArg (val_main_v4 (F := Ideal) x0) ?_) (v4_at x0 c)
  exact funext fun a => Fin.ext (by match a with | ⟨0, _⟩ => rfl)

/-- Stage 10 at (q, c) is the sum of target row q. -/
theorem v10_at (x2 : FVec Ideal S8192x2048 .f32) (q : Fin 8192) (c : Fin 1024) :
    val_main_v10 (F := Ideal) x2 (ix2 q c) = suQ x2 q := by
  rw [val_main_v10_apply, val_main_v7_apply]
  refine Eq.trans (congrArg (val_main_v6 (F := Ideal) x2) ?_) (v6_at x2 q)
  exact funext fun a => Fin.ext (by match a with | ⟨0, _⟩ => rfl)

/-- Stage 11 at (q, c) is the sum of context row c. -/
theorem v11_at (x0 : FVec Ideal S1024x2048 .f32) (q : Fin 8192) (c : Fin 1024) :
    val_main_v11 (F := Ideal) x0 (ix2 q c) = suP x0 c := by
  rw [val_main_v11_apply, val_main_v9_apply]
  refine Eq.trans (congrArg (val_main_v8 (F := Ideal) x0) ?_) (v8_at x0 c)
  exact funext fun a => Fin.ext (by match a with | ⟨0, _⟩ => rfl)

/-- The four splat literals of the first modality: 2ε, D ε², 2 and 0. -/
theorem v13_at (j : S8192x1024.Idx) : val_main_v13 (F := Ideal) j = epsC := by
  rw [val_main_v13_apply]; rfl
theorem v15_at (j : S8192x1024.Idx) : val_main_v15 (F := Ideal) j = kapC := by
  rw [val_main_v15_apply]; rfl
theorem v21_at (j : S8192x1024.Idx) : val_main_v21 (F := Ideal) j = twoC := by
  rw [val_main_v21_apply]; rfl
theorem v25_at (j : S8192x1024.Idx) : val_main_v25 (F := Ideal) j = zeroC := by
  rw [val_main_v25_apply]; rfl

/-! ## First modality: distance, weight, row sum, posterior -/

/-- Stage 27 at (q, c) is the distance, the correction added last. -/
theorem v27_at (x0 : FVec Ideal S1024x2048 .f32) (x2 : FVec Ideal S8192x2048 .f32) (q : Fin 8192) (c : Fin 1024) :
    val_main_v27 (F := Ideal) x0 x2 (ix2 q c) = distR x0 x2 q c := by
  rw [val_main_v27_apply, val_main_v26_apply, val_main_v24_apply, val_main_v23_apply, val_main_v20_apply,
    val_main_v22_apply, val_main_v16_apply, val_main_v14_apply, val_main_v12_apply,
    v18_at, v19_at, v10_at, v11_at, v5_at, v13_at, v15_at, v21_at, v25_at]
  rfl

/-- Stage 29 at (q, c) is the weight. -/
theorem v29_at (x0 : FVec Ideal S1024x2048 .f32) (x2 : FVec Ideal S8192x2048 .f32) (q : Fin 8192) (c : Fin 1024) :
    val_main_v29 (F := Ideal) x0 x2 (ix2 q c) = wgtR x0 x2 q c := by
  rw [val_main_v29_apply, val_main_v28_apply, v27_at]
  rfl

/-- Stage 30 at a target row is the row's sum of weights. -/
theorem v30_at (x0 : FVec Ideal S1024x2048 .f32) (x2 : FVec Ideal S8192x2048 .f32) (q : Fin 8192) :
    val_main_v30 (F := Ideal) x0 x2 (ix1 q) = rowsumR x0 x2 q := by
  rw [val_main_v30_apply]
  unfold rowsumR
  refine congrArg₂ (· + ·) rfl (Finset.sum_congr rfl fun k _ => ?_)
  have e : idx_main_v30 (ix1 q) k = ix2 q k :=
    funext fun a => Fin.ext (by match a with | ⟨0, _⟩ => rfl | ⟨1, _⟩ => rfl)
  rw [e]
  exact v29_at x0 x2 q k

/-- Stage 32 at (q, c) is the row sum of target row q. -/
theorem v32_at (x0 : FVec Ideal S1024x2048 .f32) (x2 : FVec Ideal S8192x2048 .f32) (q : Fin 8192) (c : Fin 1024) :
    val_main_v32 (F := Ideal) x0 x2 (ix2 q c) = rowsumR x0 x2 q := by
  rw [val_main_v32_apply, val_main_v31_apply]
  refine Eq.trans (congrArg (val_main_v30 (F := Ideal) x0 x2) ?_) (v30_at x0 x2 q)
  exact funext fun a => Fin.ext (by match a with | ⟨0, _⟩ => rfl)

/-- Stage 33 at (q, c) is the posterior. -/
theorem v33_at (x0 : FVec Ideal S1024x2048 .f32) (x2 : FVec Ideal S8192x2048 .f32) (q : Fin 8192) (c : Fin 1024) :
    val_main_v33 (F := Ideal) x0 x2 (ix2 q c) = postR x0 x2 q c := by
  rw [val_main_v33_apply, v29_at, v32_at]
  rfl

/-! ## First modality: confidence and entropy -/

/-- The reduced index q with column k put back is (q, k). -/
theorem lift_col (h : S8192x1024.Reduces [1] S8192) (q : Fin 8192) (k : Fin (S8192x1024.size 1)) :
    h.lift (ix1 q) k = ix2 q (⟨k.val, k.isLt⟩ : Fin 1024) := by
  funext a; apply Fin.ext
  match a with
  | ⟨0, _⟩ => rfl
  | ⟨1, _⟩ => rfl

/-- Stage 34 at a target row is the row's maximum posterior, folded from −∞. -/
theorem v34_at (x0 : FVec Ideal S1024x2048 .f32) (x2 : FVec Ideal S8192x2048 .f32) (q : Fin 8192) :
    val_main_v34 (F := Ideal) x0 x2 (ix1 q) = confR x0 x2 q := by
  have h : S8192x1024.Reduces [1] S8192 := by decide
  unfold val_main_v34 confR
  refine (Host.reduce_eq_fold_single (α := Ideal .f32) (s := S8192x1024) (t := S8192) (a := 1)
    (FloatOps.maximumf (F := Ideal) (φ := .f32)) (val_main_v33 (F := Ideal) x0 x2) (val_main_cst_8 (F := Ideal))
    reducesTo_S8192x1024_S8192_d1 h h_S_ (ix1 q)).trans ?_
  have hf : (val_main_v33 (F := Ideal) x0 x2 ∘ h.lift (ix1 q)) = fun c : Fin 1024 => postR x0 x2 q c :=
    funext fun k => (congrArg (val_main_v33 (F := Ideal) x0 x2) (lift_col h q k)).trans (v33_at x0 x2 q _)
  exact congrArg (fun f => Finset.fold max ninfC f (Finset.univ : Finset (Fin 1024))) hf

/-- Stage 38 at a target row is the entropy, minus the sum of posterior times its logarithm. -/
theorem v38_at (x0 : FVec Ideal S1024x2048 .f32) (x2 : FVec Ideal S8192x2048 .f32) (q : Fin 8192) :
    val_main_v38 (F := Ideal) x0 x2 (ix1 q) = entR x0 x2 q := by
  rw [val_main_v38_apply, val_main_v37_apply]
  unfold entR
  refine congrArg Neg.neg (congrArg₂ (· + ·) rfl (Finset.sum_congr rfl fun k _ => ?_))
  have e : idx_main_v37 (ix1 q) k = ix2 q k :=
    funext fun a => Fin.ext (by match a with | ⟨0, _⟩ => rfl | ⟨1, _⟩ => rfl)
  rw [e, val_main_v36_apply, val_main_v35_apply, v33_at]
  rfl

/-! ## First modality: the three results as whole arrays -/

theorem v33_eq (x0 : FVec Ideal S1024x2048 .f32) (x2 : FVec Ideal S8192x2048 .f32) :
    val_main_v33 (F := Ideal) x0 x2 = postRG x0 x2 := by
  funext j
  obtain ⟨q, c, rfl⟩ : ∃ (q : Fin 8192) (c : Fin 1024), j = ix2 q c := ⟨j 0, j 1, eq_ix2 j⟩
  exact v33_at x0 x2 q c

theorem v34_eq (x0 : FVec Ideal S1024x2048 .f32) (x2 : FVec Ideal S8192x2048 .f32) :
    val_main_v34 (F := Ideal) x0 x2 = confRG x0 x2 := by
  funext j
  obtain ⟨q, rfl⟩ : ∃ q : Fin 8192, j = ix1 q := ⟨j 0, eq_ix1 j⟩
  exact v34_at x0 x2 q

theorem v38_eq (x0 : FVec Ideal S1024x2048 .f32) (x2 : FVec Ideal S8192x2048 .f32) :
    val_main_v38 (F := Ideal) x0 x2 = entRG x0 x2 := by
  funext j
  obtain ⟨q, rfl⟩ : ∃ q : Fin 8192, j = ix1 q := ⟨j 0, eq_ix1 j⟩
  exact v38_at x0 x2 q

/-! ## Second modality: the row terms -/

/-- Stage 40 at a target row is the squared norm of that row. -/
theorem v40_at (x3 : FVec Ideal S8192x2048 .f32) (q : Fin 8192) :
    val_main_v40 (F := Ideal) x3 (ix1 q) = sqQ x3 q := by
  rw [val_main_v40_apply]
  unfold sqQ
  refine congrArg₂ (· + ·) rfl (Finset.sum_congr rfl fun k _ => ?_)
  have e : idx_main_v40 (ix1 q) k = ix2 q k :=
    funext fun a => Fin.ext (by match a with | ⟨0, _⟩ => rfl | ⟨1, _⟩ => rfl)
  exact congrArg (fun i => x3 i * x3 i) e

/-- Stage 43 at a context row is the squared norm of that row. -/
theorem v43_at (x1 : FVec Ideal S1024x2048 .f32) (c : Fin 1024) :
    val_main_v43 (F := Ideal) x1 (ix1 c) = sqP x1 c := by
  rw [val_main_v43_apply]
  unfold sqP
  refine congrArg₂ (· + ·) rfl (Finset.sum_congr rfl fun k _ => ?_)
  have e : idx_main_v43 (ix1 c) k = ix2 c k :=
    funext fun a => Fin.ext (by match a with | ⟨0, _⟩ => rfl | ⟨1, _⟩ => rfl)
  exact congrArg (fun i => x1 i * x1 i) e

/-- Stage 44 at (q, c) is the inner product of target row q and context row c. -/
theorem v44_at (x1 : FVec Ideal S1024x2048 .f32) (x3 : FVec Ideal S8192x2048 .f32) (q : Fin 8192) (c : Fin 1024) :
    val_main_v44 (F := Ideal) x1 x3 (ix2 q c) = cross x1 x3 q c := by
  rw [val_main_v44_apply]
  unfold cross
  refine Finset.sum_congr rfl fun k _ => ?_
  have el : lidx_main_v44 (ix2 q c) k = ix2 q k :=
    funext fun a => Fin.ext (by match a with | ⟨0, _⟩ => rfl | ⟨1, _⟩ => rfl)
  have er : ridx_main_v44 (ix2 q c) k = ix2 c k :=
    funext fun a => Fin.ext (by match a with | ⟨0, _⟩ => rfl | ⟨1, _⟩ => rfl)
  rw [el, er]

/-- Stage 45 at a target row is the sum of that row. -/
theorem v45_at (x3 : FVec Ideal S8192x2048 .f32) (q : Fin 8192) :
    val_main_v45 (F := Ideal) x3 (ix1 q) = suQ x3 q := by
  rw [val_main_v45_apply]
  unfold suQ
  refine congrArg₂ (· + ·) rfl (Finset.sum_congr rfl fun k _ => ?_)
  have e : idx_main_v45 (ix1 q) k = ix2 q k :=
    funext fun a => Fin.ext (by match a with | ⟨0, _⟩ => rfl | ⟨1, _⟩ => rfl)
  exact congrArg x3 e

/-- Stage 47 at a context row is the sum of that row. -/
theorem v47_at (x1 : FVec Ideal S1024x2048 .f32) (c : Fin 1024) :
    val_main_v47 (F := Ideal) x1 (ix1 c) = suP x1 c := by
  rw [val_main_v47_apply]
  unfold suP
  refine congrArg₂ (· + ·) rfl (Finset.sum_congr rfl fun k _ => ?_)
  have e : idx_main_v47 (ix1 c) k = ix2 c k :=
    funext fun a => Fin.ext (by match a with | ⟨0, _⟩ => rfl | ⟨1, _⟩ => rfl)
  exact congrArg x1 e

/-! ## Second modality: the row terms spread over the (q, c) grid -/

/-- Stage 57 at (q, c) is the squared norm of target row q. -/
theorem v57_at (x3 : FVec Ideal S8192x2048 .f32) (q : Fin 8192) (c : Fin 1024) :
    val_main_v57 (F := Ideal) x3 (ix2 q c) = sqQ x3 q := by
  rw [val_main_v57_apply, val_main_v41_apply]
  refine Eq.trans (congrArg (val_main_v40 (F := Ideal) x3) ?_) (v40_at x3 q)
  exact funext fun a => Fin.ext (by match a with | ⟨0, _⟩ => rfl)

/-- Stage 58 at (q, c) is the squared norm of context row c. -/
theorem v58_at (x1 : FVec Ideal S1024x2048 .f32) (q : Fin 8192) (c : Fin 1024) :
    val_main_v58 (F := Ideal) x1 (ix2 q c) = sqP x1 c := by
  rw [val_main_v58_apply, val_main_v56_apply]
  refine Eq.trans (congrArg (val_main_v43 (F := Ideal) x1) ?_) (v43_at x1 c)
  exact funext fun a => Fin.ext (by match a with | ⟨0, _⟩ => rfl)

/-- Stage 49 at (q, c) is the sum of target row q. -/
theorem v49_at (x3 : FVec Ideal S8192x2048 .f32) (q : Fin 8192) (c : Fin 1024) :
    val_main_v49 (F := Ideal) x3 (ix2 q c) = suQ x3 q := by
  rw [val_main_v49_apply, val_main_v46_apply]
  refine Eq.trans (congrArg (val_main_v45 (F := Ideal) x3) ?_) (v45_at x3 q)
  exact funext fun a => Fin.ext (by match a with | ⟨0, _⟩ => rfl)

/-- Stage 50 at (q, c) is the sum of context row c. -/
theorem v50_at (x1 : FVec Ideal S1024x2048 .f32) (q : Fin 8192) (c : Fin 1024) :
    val_main_v50 (F := Ideal) x1 (ix2 q c) = suP x1 c := by
  rw [val_main_v50_apply, val_main_v48_apply]
  refine Eq.trans (congrArg (val_main_v47 (F := Ideal) x1) ?_) (v47_at x1 c)
  exact funext fun a => Fin.ext (by match a with | ⟨0, _⟩ => rfl)

/-- The four splat literals of the second modality: 2ε, D ε², 2 and 0. -/
theorem v52_at (j : S8192x1024.Idx) : val_main_v52 (F := Ideal) j = epsC := by
  rw [val_main_v52_apply]; rfl
theorem v54_at (j : S8192x1024.Idx) : val_main_v54 (F := Ideal) j = kapC := by
  rw [val_main_v54_apply]; rfl
theorem v60_at (j : S8192x1024.Idx) : val_main_v60 (F := Ideal) j = twoC := by
  rw [val_main_v60_apply]; rfl
theorem v64_at (j : S8192x1024.Idx) : val_main_v64 (F := Ideal) j = zeroC := by
  rw [val_main_v64_apply]; rfl

/-! ## Second modality: distance, weight, row sum, posterior -/

/-- Stage 66 at (q, c) is the distance, the correction added last. -/
theorem v66_at (x1 : FVec Ideal S1024x2048 .f32) (x3 : FVec Ideal S8192x2048 .f32) (q : Fin 8192) (c : Fin 1024) :
    val_main_v66 (F := Ideal) x1 x3 (ix2 q c) = distR x1 x3 q c := by
  rw [val_main_v66_apply, val_main_v65_apply, val_main_v63_apply, val_main_v62_apply, val_main_v59_apply,
    val_main_v61_apply, val_main_v55_apply, val_main_v53_apply, val_main_v51_apply,
    v57_at, v58_at, v49_at, v50_at, v44_at, v52_at, v54_at, v60_at, v64_at]
  rfl

/-- Stage 68 at (q, c) is the weight. -/
theorem v68_at (x1 : FVec Ideal S1024x2048 .f32) (x3 : FVec Ideal S8192x2048 .f32) (q : Fin 8192) (c : Fin 1024) :
    val_main_v68 (F := Ideal) x1 x3 (ix2 q c) = wgtR x1 x3 q c := by
  rw [val_main_v68_apply, val_main_v67_apply, v66_at]
  rfl

/-- Stage 69 at a target row is the row's sum of weights. -/
theorem v69_at (x1 : FVec Ideal S1024x2048 .f32) (x3 : FVec Ideal S8192x2048 .f32) (q : Fin 8192) :
    val_main_v69 (F := Ideal) x1 x3 (ix1 q) = rowsumR x1 x3 q := by
  rw [val_main_v69_apply]
  unfold rowsumR
  refine congrArg₂ (· + ·) rfl (Finset.sum_congr rfl fun k _ => ?_)
  have e : idx_main_v69 (ix1 q) k = ix2 q k :=
    funext fun a => Fin.ext (by match a with | ⟨0, _⟩ => rfl | ⟨1, _⟩ => rfl)
  rw [e]
  exact v68_at x1 x3 q k

/-- Stage 71 at (q, c) is the row sum of target row q. -/
theorem v71_at (x1 : FVec Ideal S1024x2048 .f32) (x3 : FVec Ideal S8192x2048 .f32) (q : Fin 8192) (c : Fin 1024) :
    val_main_v71 (F := Ideal) x1 x3 (ix2 q c) = rowsumR x1 x3 q := by
  rw [val_main_v71_apply, val_main_v70_apply]
  refine Eq.trans (congrArg (val_main_v69 (F := Ideal) x1 x3) ?_) (v69_at x1 x3 q)
  exact funext fun a => Fin.ext (by match a with | ⟨0, _⟩ => rfl)

/-- Stage 72 at (q, c) is the posterior. -/
theorem v72_at (x1 : FVec Ideal S1024x2048 .f32) (x3 : FVec Ideal S8192x2048 .f32) (q : Fin 8192) (c : Fin 1024) :
    val_main_v72 (F := Ideal) x1 x3 (ix2 q c) = postR x1 x3 q c := by
  rw [val_main_v72_apply, v68_at, v71_at]
  rfl

/-! ## Second modality: confidence and entropy -/

/-- Stage 73 at a target row is the row's maximum posterior, folded from −∞. -/
theorem v73_at (x1 : FVec Ideal S1024x2048 .f32) (x3 : FVec Ideal S8192x2048 .f32) (q : Fin 8192) :
    val_main_v73 (F := Ideal) x1 x3 (ix1 q) = confR x1 x3 q := by
  have h : S8192x1024.Reduces [1] S8192 := by decide
  unfold val_main_v73 confR
  refine (Host.reduce_eq_fold_single (α := Ideal .f32) (s := S8192x1024) (t := S8192) (a := 1)
    (FloatOps.maximumf (F := Ideal) (φ := .f32)) (val_main_v72 (F := Ideal) x1 x3) (val_main_cst_19 (F := Ideal))
    reducesTo_S8192x1024_S8192_d1 h h_S_ (ix1 q)).trans ?_
  have hf : (val_main_v72 (F := Ideal) x1 x3 ∘ h.lift (ix1 q)) = fun c : Fin 1024 => postR x1 x3 q c :=
    funext fun k => (congrArg (val_main_v72 (F := Ideal) x1 x3) (lift_col h q k)).trans (v72_at x1 x3 q _)
  exact congrArg (fun f => Finset.fold max ninfC f (Finset.univ : Finset (Fin 1024))) hf

/-- Stage 77 at a target row is the entropy, minus the sum of posterior times its logarithm. -/
theorem v77_at (x1 : FVec Ideal S1024x2048 .f32) (x3 : FVec Ideal S8192x2048 .f32) (q : Fin 8192) :
    val_main_v77 (F := Ideal) x1 x3 (ix1 q) = entR x1 x3 q := by
  rw [val_main_v77_apply, val_main_v76_apply]
  unfold entR
  refine congrArg Neg.neg (congrArg₂ (· + ·) rfl (Finset.sum_congr rfl fun k _ => ?_))
  have e : idx_main_v76 (ix1 q) k = ix2 q k :=
    funext fun a => Fin.ext (by match a with | ⟨0, _⟩ => rfl | ⟨1, _⟩ => rfl)
  rw [e, val_main_v75_apply, val_main_v74_apply, v72_at]
  rfl

/-! ## Second modality: the three results as whole arrays -/

theorem v72_eq (x1 : FVec Ideal S1024x2048 .f32) (x3 : FVec Ideal S8192x2048 .f32) :
    val_main_v72 (F := Ideal) x1 x3 = postRG x1 x3 := by
  funext j
  obtain ⟨q, c, rfl⟩ : ∃ (q : Fin 8192) (c : Fin 1024), j = ix2 q c := ⟨j 0, j 1, eq_ix2 j⟩
  exact v72_at x1 x3 q c

theorem v73_eq (x1 : FVec Ideal S1024x2048 .f32) (x3 : FVec Ideal S8192x2048 .f32) :
    val_main_v73 (F := Ideal) x1 x3 = confRG x1 x3 := by
  funext j
  obtain ⟨q, rfl⟩ : ∃ q : Fin 8192, j = ix1 q := ⟨j 0, eq_ix1 j⟩
  exact v73_at x1 x3 q

theorem v77_eq (x1 : FVec Ideal S1024x2048 .f32) (x3 : FVec Ideal S8192x2048 .f32) :
    val_main_v77 (F := Ideal) x1 x3 = entRG x1 x3 := by
  funext j
  obtain ⟨q, rfl⟩ : ∃ q : Fin 8192, j = ix1 q := ⟨j 0, eq_ix1 j⟩
  exact v77_at x1 x3 q

end Cert.ReferenceIdeal.RefValue

end
-- ==== Proof.Algebra.lean ====
/-
  The direct spelling of the posterior equals the folded one when every entry of both arrays is a
  real number.

  With real entries every row term (a squared norm, a row sum, an inner product) is a real number, and so
  are the three literals that are multiplied or added in. The two arguments of the clamp are then the
  same real number: the only difference between them is that the product `2ε (Σ Q q − Σ P c)` is
  distributed over the difference, which holds for reals (and fails at infinities, which is where
  finiteness is used). Hence both distances are one real `d c`, both weights are `exp (− d c) > 0`, both
  row sums are `S = Σ_c exp (− d c) > 0`, and both posteriors are `exp (− d c) / S`. For the entropy,
  `log (exp (− d c) / S) = − d c − log S` and `Σ_c exp (− d c) / S = 1`, so
  `− Σ_c post c · log (post c) = Σ_c post c · d c + log S`.
-/
import proofs.«108093_j38130719653971_2_alg».proof.Proof.Spec
import Mathlib.Analysis.SpecialFunctions.Log.Basic

noncomputable section

open scoped BigOperators

namespace Cert.Posterior

open Idealize.ShloMosaic Idealize.ShloMosaic.ValueIdx

/-! The auxiliary statements live in their own namespace; the three results at the end do not. -/
namespace RealForm

/-! ## Real numbers inside the extended reals -/

/-- A finite sum of real numbers, taken in the extended reals, is the real sum. -/
theorem coe_sum {ι : Type*} (s : Finset ι) (f : ι → ℝ) :
    ∑ i ∈ s, (f i : EReal) = ((∑ i ∈ s, f i : ℝ) : EReal) := by
  classical
  induction s using Finset.induction_on with
  | empty => simp
  | insert a s ha ih => rw [Finset.sum_insert ha, Finset.sum_insert ha, ih, EReal.coe_add]

/-- The zero literal is zero. -/
theorem zeroC_eq : zeroC = 0 := Ideal.ofBits_zero_f32

/-- The literal `2ε` is a real number: its exponent field is not all ones. -/
theorem epsC_real : ∃ r : ℝ, epsC = (r : EReal) := by
  simp only [epsC, Ideal.ofBits, Ideal.ieee]
  rw [if_neg (by decide), if_neg (by decide)]
  exact ⟨_, rfl⟩

/-- The literal `D ε²` is a real number. -/
theorem kapC_real : ∃ r : ℝ, kapC = (r : EReal) := by
  simp only [kapC, Ideal.ofBits, Ideal.ieee]
  rw [if_neg (by decide), if_neg (by decide)]
  exact ⟨_, rfl⟩

/-- The literal `2` is a real number. -/
theorem twoC_real : ∃ r : ℝ, twoC = (r : EReal) := by
  simp only [twoC, Ideal.ofBits, Ideal.ieee]
  rw [if_neg (by decide), if_neg (by decide)]
  exact ⟨_, rfl⟩

/-- The square root of a real number clamped at zero is the real square root of the clamped number. -/
theorem sqrt_max_coe (a : ℝ) :
    Ideal.sqrt (max (a : EReal) zeroC) = ((Real.sqrt (max a 0) : ℝ) : EReal) := by
  have h : max (a : EReal) zeroC = ((max a 0 : ℝ) : EReal) := by
    rw [zeroC_eq, ← EReal.coe_zero]
    exact (EReal.coe_strictMono.monotone.map_max).symm
  rw [h, Ideal.sqrt_coe, if_neg (not_lt.2 (le_max_right _ _))]

/-- The exponential of the negation of a real number. -/
theorem exp_neg_coe (d : ℝ) : Ideal.exp (-(d : EReal)) = ((Real.exp (-d) : ℝ) : EReal) := by
  rw [← EReal.coe_neg, Ideal.exp_coe]

/-- Subtracting from the zero literal is negating. -/
theorem exp_zero_sub_coe (d : ℝ) : Ideal.exp (zeroC - (d : EReal)) = ((Real.exp (-d) : ℝ) : EReal) := by
  rw [zeroC_eq, zero_sub, exp_neg_coe]

/-! ## The entropy identity over the reals -/

/-- For weights `exp (− d i)` with sum `S`, the entropy of the normalised weights `exp (− d i) / S` is their
    mean distance plus `log S`: `log (exp (− d i) / S) = − d i − log S`, and the normalised weights sum
    to one. -/
theorem entropy_real {ι : Type*} [Fintype ι] [Nonempty ι] (d : ι → ℝ) (S : ℝ)
    (hS : S = ∑ j, Real.exp (-(d j))) :
    -(∑ i, Real.exp (-(d i)) / S * Real.log (Real.exp (-(d i)) / S))
      = (∑ i, Real.exp (-(d i)) / S * d i) + Real.log S := by
  have hSpos : 0 < S := by
    rw [hS]; exact Finset.sum_pos (fun i _ => Real.exp_pos _) Finset.univ_nonempty
  have hlog : ∀ i, Real.log (Real.exp (-(d i)) / S) = -(d i) - Real.log S := fun i => by
    rw [Real.log_div (Real.exp_ne_zero _) hSpos.ne', Real.log_exp]
  have hone : ∑ i, Real.exp (-(d i)) / S = 1 := by
    rw [← Finset.sum_div, ← hS, div_self hSpos.ne']
  have h3 : ∀ i, Real.exp (-(d i)) / S * Real.log (Real.exp (-(d i)) / S)
      = -(Real.exp (-(d i)) / S * d i) - Real.log S * (Real.exp (-(d i)) / S) := fun i => by
    rw [hlog]; ring
  rw [Finset.sum_congr rfl fun i _ => h3 i, Finset.sum_sub_distrib, Finset.sum_neg_distrib,
    ← Finset.mul_sum, hone]
  ring

/-! ## The row terms of real arrays -/

variable {P : ShP.Idx → EReal} {Q : ShQ.Idx → EReal}

theorem sqP_real (hP : ∀ i, ∃ r : ℝ, P i = (r : EReal)) (c : Fin 1024) :
    ∃ x : ℝ, sqP P c = (x : EReal) := by
  choose p hp using hP
  refine ⟨∑ d : Fin 2048, p (ix2 c d) * p (ix2 c d), ?_⟩
  rw [sqP, zeroC_eq, zero_add, ← coe_sum]
  exact Finset.sum_congr rfl fun d _ => by rw [hp, EReal.coe_mul]

theorem suP_real (hP : ∀ i, ∃ r : ℝ, P i = (r : EReal)) (c : Fin 1024) :
    ∃ x : ℝ, suP P c = (x : EReal) := by
  choose p hp using hP
  refine ⟨∑ d : Fin 2048, p (ix2 c d), ?_⟩
  rw [suP, zeroC_eq, zero_add, ← coe_sum]
  exact Finset.sum_congr rfl fun d _ => hp _

theorem sqQ_real (hQ : ∀ i, ∃ r : ℝ, Q i = (r : EReal)) (q : Fin 8192) :
    ∃ x : ℝ, sqQ Q q = (x : EReal) := by
  choose r hr using hQ
  refine ⟨∑ d : Fin 2048, r (ix2 q d) * r (ix2 q d), ?_⟩
  rw [sqQ, zeroC_eq, zero_add, ← coe_sum]
  exact Finset.sum_congr rfl fun d _ => by rw [hr, EReal.coe_mul]

theorem suQ_real (hQ : ∀ i, ∃ r : ℝ, Q i = (r : EReal)) (q : Fin 8192) :
    ∃ x : ℝ, suQ Q q = (x : EReal) := by
  choose r hr using hQ
  refine ⟨∑ d : Fin 2048, r (ix2 q d), ?_⟩
  rw [suQ, zeroC_eq, zero_add, ← coe_sum]
  exact Finset.sum_congr rfl fun d _ => hr _

theorem cross_real (hP : ∀ i, ∃ r : ℝ, P i = (r : EReal)) (hQ : ∀ i, ∃ r : ℝ, Q i = (r : EReal))
    (q : Fin 8192) (c : Fin 1024) : ∃ x : ℝ, cross P Q q c = (x : EReal) := by
  choose p hp using hP
  choose r hr using hQ
  refine ⟨∑ d : Fin 2048, r (ix2 q d) * p (ix2 c d), ?_⟩
  rw [cross, ← coe_sum]
  exact Finset.sum_congr rfl fun d _ => by rw [hp, hr, EReal.coe_mul]

/-! ## One distance for both spellings -/

/-- Both distances are the same real number: the two clamped arguments differ only by distributing
    `2ε` over `Σ Q q − Σ P c` and by the order of the additions. -/
theorem dist_real (hP : ∀ i, ∃ r : ℝ, P i = (r : EReal)) (hQ : ∀ i, ∃ r : ℝ, Q i = (r : EReal))
    (q : Fin 8192) (c : Fin 1024) :
    ∃ d : ℝ, dist P Q q c = (d : EReal) ∧ distR P Q q c = (d : EReal) := by
  obtain ⟨sp, hsp⟩ := sqP_real hP c
  obtain ⟨up, hup⟩ := suP_real hP c
  obtain ⟨sq, hsq⟩ := sqQ_real hQ q
  obtain ⟨uq, huq⟩ := suQ_real hQ q
  obtain ⟨x, hx⟩ := cross_real hP hQ q c
  obtain ⟨ε, hε⟩ := epsC_real
  obtain ⟨κ, hκ⟩ := kapC_real
  obtain ⟨t, ht⟩ := twoC_real
  have hF : (qcorr Q q + pcorr P c) - twoC * cross P Q q c
      = (((sq + ε * uq) + ((sp - ε * up) + κ) - t * x : ℝ) : EReal) := by
    rw [qcorr, pcorr, hsp, hup, hsq, huq, hx, hε, hκ, ht]
    simp only [EReal.coe_add, EReal.coe_sub, EReal.coe_mul]
  have hD : ((sqQ Q q + sqP P c) - twoC * cross P Q q c) + (epsC * (suQ Q q - suP P c) + kapC)
      = (((sq + ε * uq) + ((sp - ε * up) + κ) - t * x : ℝ) : EReal) := by
    rw [show (sq + ε * uq) + ((sp - ε * up) + κ) - t * x
        = ((sq + sp) - t * x) + (ε * (uq - up) + κ) by ring,
      hsp, hup, hsq, huq, hx, hε, hκ, ht]
    simp only [EReal.coe_add, EReal.coe_sub, EReal.coe_mul]
  refine ⟨Real.sqrt (max ((sq + ε * uq) + ((sp - ε * up) + κ) - t * x) 0), ?_, ?_⟩
  · rw [dist, hF, sqrt_max_coe]
  · rw [distR, hD, sqrt_max_coe]

/-- One row: a real distance per context point, the common weights `exp (− d c)`, and their sum. -/
theorem row_facts (hP : ∀ i, ∃ r : ℝ, P i = (r : EReal)) (hQ : ∀ i, ∃ r : ℝ, Q i = (r : EReal))
    (q : Fin 8192) :
    ∃ (d : Fin 1024 → ℝ) (S : ℝ), S = ∑ c, Real.exp (-(d c)) ∧
      (∀ c, dist P Q q c = (d c : EReal)) ∧
      (∀ c, wgt P Q q c = ((Real.exp (-(d c)) : ℝ) : EReal)) ∧
      (∀ c, wgtR P Q q c = ((Real.exp (-(d c)) : ℝ) : EReal)) ∧
      rowsum P Q q = (S : EReal) ∧ rowsumR P Q q = (S : EReal) := by
  choose d hd hdR using fun c => dist_real hP hQ q c
  have hw : ∀ c, wgt P Q q c = ((Real.exp (-(d c)) : ℝ) : EReal) := fun c => by
    rw [wgt, hd, exp_zero_sub_coe]
  have hwR : ∀ c, wgtR P Q q c = ((Real.exp (-(d c)) : ℝ) : EReal) := fun c => by
    rw [wgtR, hdR, exp_neg_coe]
  refine ⟨d, ∑ c, Real.exp (-(d c)), rfl, hd, hw, hwR, ?_, ?_⟩
  · rw [rowsum, ← coe_sum]
    exact Finset.sum_congr rfl fun c _ => hw c
  · rw [rowsumR, zeroC_eq, zero_add, ← coe_sum]
    exact Finset.sum_congr rfl fun c _ => hwR c

end RealForm

open RealForm

/-! ## The three outputs -/

variable {P : ShP.Idx → EReal} {Q : ShQ.Idx → EReal}

theorem postR_eq_post (hP : ∀ i, ∃ r : ℝ, P i = (r : EReal)) (hQ : ∀ i, ∃ r : ℝ, Q i = (r : EReal))
    (q : Fin 8192) (c : Fin 1024) : postR P Q q c = post P Q q c := by
  obtain ⟨d, S, -, -, hw, hwR, hs, hsR⟩ := row_facts hP hQ q
  rw [postR, post, hw, hwR, hs, hsR]

theorem confR_eq_conf (hP : ∀ i, ∃ r : ℝ, P i = (r : EReal)) (hQ : ∀ i, ∃ r : ℝ, Q i = (r : EReal))
    (q : Fin 8192) : confR P Q q = conf P Q q := by
  simp only [confR, conf, postR_eq_post hP hQ q]

theorem entR_eq_ent (hP : ∀ i, ∃ r : ℝ, P i = (r : EReal)) (hQ : ∀ i, ∃ r : ℝ, Q i = (r : EReal))
    (q : Fin 8192) : entR P Q q = ent P Q q := by
  obtain ⟨d, S, hS, hd, hw, -, hs, -⟩ := row_facts hP hQ q
  have hSpos : 0 < S := by
    rw [hS]; exact Finset.sum_pos (fun c _ => Real.exp_pos _) Finset.univ_nonempty
  have hpost : ∀ c, post P Q q c = ((Real.exp (-(d c)) / S : ℝ) : EReal) := fun c => by
    rw [post, hw, hs, Ideal.div_coe hSpos.ne', ← EReal.coe_mul, mul_one_div]
  have hlogpost : ∀ c, Ideal.log ((Real.exp (-(d c)) / S : ℝ) : EReal)
      = ((Real.log (Real.exp (-(d c)) / S) : ℝ) : EReal) := fun c => by
    rw [Ideal.log_coe, if_neg (not_le.2 (div_pos (Real.exp_pos _) hSpos))]
  have hlogS : Ideal.log (S : EReal) = ((Real.log S : ℝ) : EReal) := by
    rw [Ideal.log_coe, if_neg (not_le.2 hSpos)]
  have hL : entR P Q q
      = ((-(∑ c, Real.exp (-(d c)) / S * Real.log (Real.exp (-(d c)) / S)) : ℝ) : EReal) := by
    rw [entR, zeroC_eq, zero_add, EReal.coe_neg, ← coe_sum]
    refine congrArg Neg.neg (Finset.sum_congr rfl fun c _ => ?_)
    rw [postR_eq_post hP hQ, hpost, hlogpost, EReal.coe_mul]
  have hR : ent P Q q = (((∑ c, Real.exp (-(d c)) / S * d c) + Real.log S : ℝ) : EReal) := by
    rw [ent, hs, hlogS, EReal.coe_add, ← coe_sum]
    refine congrArg (· + _) (Finset.sum_congr rfl fun c _ => ?_)
    rw [hpost, hd, EReal.coe_mul]
  rw [hL, hR, entropy_real d S hS]

end Cert.Posterior

end
-- ==== Proof.Finite.lean ====
/-
  Finite inputs are real inputs.

  The precondition of this certificate is a single truth value: for each of the four argument
  arrays `x` it forms `|x| < +∞` entry by entry, takes the conjunction over all entries, and
  conjoins the four results. Read over the extended reals, `|x| = max x (-x)`, the bound is `⊤`,
  and `max x (-x) < ⊤` excludes exactly `x = ⊤` and `x = ⊥`. Hence, when the truth value is
  one, every entry of every argument array is (the image of) a real number. That is what this
  module proves: first for four arbitrary arrays of the right shapes, then for the four argument
  buffers of a memory that satisfies the precondition, on any device.
-/
import proofs.«108093_j38130719653971_2_alg».proof.Defs
import proofs.«108093_j38130719653971_2_alg».proof.Proof.Gen.Pre_finite_inputs
import Idealize.ShloMosaic.Lib.ReduceAll

noncomputable section

namespace Cert.Proof.Finite

open Idealize.ShloMosaic Idealize.SL.Sem

/-- The shape of a scalar has exactly one index (the empty tuple of coordinates). -/
instance : Subsingleton Cert.Pre_finite_inputs.S_.Idx := ⟨fun a b => funext fun d => d.elim0⟩

/-- An extended real whose absolute value `max x (-x)` lies strictly below `⊤` is a real number:
    at `x = ⊤` the maximum is `⊤` itself, at `x = ⊥` it is `-⊥ = ⊤`. -/
theorem real_of_abs_lt_top (x : EReal) (h : max x (-x) < ⊤) : ∃ r : ℝ, x = (r : EReal) := by
  induction x using EReal.rec with
  | bot => simp at h
  | coe r => exact ⟨r, rfl⟩
  | top => simp at h

/-- The pattern `0x7F800000` (sign 0, exponent all ones, fraction 0) denotes `+∞`. -/
theorem ofBits_inf : Ideal.ofBits .f32 0x7F800000#32 = (⊤ : EReal) := by simp [Ideal.ofBits, Ideal.ieee]

/-- The ordered comparison `<` answers one only when the strict inequality holds. -/
theorem lt_of_cmp_olt (x y : EReal) (h : Ideal.cmp .olt x y = 1#1) : x < y := by
  by_contra hc
  have h0 : Ideal.cmp .olt x y = 0#1 := by
    show BitVec.ofBool (decide (x < y)) = 0#1
    rw [decide_eq_false hc]; rfl
  rw [h0] at h
  exact absurd h (by decide)

/-- One entry: if the comparison `|a i| < +∞` (the bound a scalar constant spread over the
    shape of `a`) answers one at index `i`, then `a i` is a real number. -/
theorem real_of_elem {s : Shape} (hb : Cert.Pre_finite_inputs.S_.BroadcastsInDim s (![] : Fin 0 → Fin s.rank))
    (a : FVec Ideal s .f32) (i : s.Idx)
    (h : cmpf .olt (Host.absf a) (broadcastInDim s ![] hb (constant Cert.Pre_finite_inputs.S_ .f32 0x7F800000#32)) i = 1#1) :
    ∃ r : ℝ, a i = (r : EReal) := by
  apply real_of_abs_lt_top
  -- the comparison at `i`, by definition: absolute value is `max x (-x)`, the bound is the constant
  have h' : Ideal.cmp .olt (max (a i) (-(a i))) (Ideal.ofBits .f32 0x7F800000#32) = 1#1 := h
  rw [ofBits_inf] at h'
  exact lt_of_cmp_olt _ _ h'

/-- The core: if the conjunction over all four arrays of "every entry has `|x| < +∞`" is one,
    then every entry of each array is a real number. The outer conjunction splits into its four
    parts, each part is a conjunction over all entries of an array and so gives the comparison at
    every index, and the comparison at an index gives a real entry. -/
theorem real_of_fn [Cert.Pre_finite_inputs.Facts] (a0 a1 : FVec Ideal Cert.Pre_finite_inputs.S1024x2048 .f32) (a2 a3 : FVec Ideal Cert.Pre_finite_inputs.S8192x2048 .f32)
    (h : Cert.Pre_finite_inputs.fn (F := Ideal) a0 a1 a2 a3 = (fun _ => 1#1)) :
    (∀ i, ∃ r : ℝ, a0 i = (r : EReal)) ∧ (∀ i, ∃ r : ℝ, a1 i = (r : EReal)) ∧ (∀ i, ∃ r : ℝ, a2 i = (r : EReal)) ∧ (∀ i, ∃ r : ℝ, a3 i = (r : EReal)) := by
  -- the truth value at its one index
  have h0 := congrFun h (fun d => d.elim0)
  dsimp only [Cert.Pre_finite_inputs.fn, Cert.Pre_finite_inputs.fn_part1, andi] at h0
  -- ((p0 ∧ p1) ∧ p2) ∧ p3
  obtain ⟨h012, e3⟩ := IntOp.andi_eq_one.1 h0
  obtain ⟨h01, e2⟩ := IntOp.andi_eq_one.1 h012
  obtain ⟨e0, e1⟩ := IntOp.andi_eq_one.1 h01
  exact ⟨fun i => real_of_elem _ a0 i (Host.reduce_andi_all _ _ _ _ _ e0 i),
    fun i => real_of_elem _ a1 i (Host.reduce_andi_all _ _ _ _ _ e1 i),
    fun i => real_of_elem _ a2 i (Host.reduce_andi_all _ _ _ _ _ e2 i),
    fun i => real_of_elem _ a3 i (Host.reduce_andi_all _ _ _ _ _ e3 i)⟩

/-- For a memory satisfying the precondition, on every device, the four argument buffers hold
    real numbers only. -/
theorem real_of_pre [hK : Cert.KernelIdeal.Facts] [hPre : Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    (∀ i, ∃ r : ℝ, m ((c.tc : Thread Cert.KernelIdeal.nD Cert.KernelIdeal.τ).loc Cert.KernelIdeal.main_arg0) i = (r : EReal))
    ∧ (∀ i, ∃ r : ℝ, m ((c.tc : Thread Cert.KernelIdeal.nD Cert.KernelIdeal.τ).loc Cert.KernelIdeal.main_arg1) i = (r : EReal))
    ∧ (∀ i, ∃ r : ℝ, m ((c.tc : Thread Cert.KernelIdeal.nD Cert.KernelIdeal.τ).loc Cert.KernelIdeal.main_arg2) i = (r : EReal))
    ∧ (∀ i, ∃ r : ℝ, m ((c.tc : Thread Cert.KernelIdeal.nD Cert.KernelIdeal.τ).loc Cert.KernelIdeal.main_arg3) i = (r : EReal)) :=
  real_of_fn _ _ _ _ (h c)

end Cert.Proof.Finite

end
-- ==== Proof.lean ====
/-
  The posterior of two modalities, computed by a pipelined kernel per modality, against the plain formulation.

  For each modality (context points `P : [1024, 2048]`, targets `Q : [8192, 2048]`) both programs compute, for
  every target `q` and context `c`, the distance `‖Q q − P c + ε‖` from the expanded square
  `‖Q q‖² + ‖P c‖² − 2⟨Q q, P c⟩ + 2ε(Σ Q q − Σ P c) + Dε²` clamped at zero, the weights `exp(−distance)`, the
  posterior (each row of weights divided by its sum), the confidence (the row's maximum) and the entropy; and
  from the two modalities' entropies and confidences the selection mask. The kernel's program collects the
  row terms on the host before the call — `‖Q q‖² + 2ε Σ Q q` per target, `‖P c‖² − 2ε Σ P c + Dε²` per
  context — streams blocks of 512 targets against all contexts, and takes the entropy as
  `Σ_c posterior · distance + log(row sum)`; the reference adds the correction last and takes
  `−Σ_c posterior · log posterior`.

  At the ideal values, where the roundings to bf16 are the identity and a matrix product is the sum it denotes,
  the two agree whenever the inputs are finite: the two squares differ by distributing `2ε` over a difference of
  two finite sums, and the two entropies agree because `log(e^{−d}/S) = −d − log S` for a positive row sum `S`
  and the posterior's row sums to one. Finiteness is exactly what the precondition gives.

  The proof: the kernel's run names every buffer's final contents; each call's three output arrays are read
  block by block as one whole-array function of its two arguments (the folded spelling); the reference's
  generated run is read stage by stage as the direct spelling; the two spellings are equal under real entries;
  the mask is the same two comparisons of equal vectors. The ideal pass rewrote nothing, so the idealization
  claim is trivial; the three frames are the generated ones (the reference's is its run with the results dropped).
-/
import proofs.«108093_j38130719653971_2_alg».proof.Defs
import proofs.«108093_j38130719653971_2_alg».proof.Proof.Gen.Kernel
import proofs.«108093_j38130719653971_2_alg».proof.Proof.Gen.Kernel.Skeleton
import proofs.«108093_j38130719653971_2_alg».proof.Proof.Gen.Kernel.Launch
import proofs.«108093_j38130719653971_2_alg».proof.Proof.Gen.Kernel.Points
import proofs.«108093_j38130719653971_2_alg».proof.Proof.Gen.Kernel.Frame
import proofs.«108093_j38130719653971_2_alg».proof.Proof.Gen.KernelIdeal
import proofs.«108093_j38130719653971_2_alg».proof.Proof.Gen.KernelIdeal.Skeleton
import proofs.«108093_j38130719653971_2_alg».proof.Proof.Gen.KernelIdeal.Launch
import proofs.«108093_j38130719653971_2_alg».proof.Proof.Gen.KernelIdeal.Points
import proofs.«108093_j38130719653971_2_alg».proof.Proof.Gen.KernelIdeal.Frame
import proofs.«108093_j38130719653971_2_alg».proof.Proof.Gen.ReferenceIdeal
import proofs.«108093_j38130719653971_2_alg».proof.Proof.Gen.Pre_finite_inputs
import proofs.«108093_j38130719653971_2_alg».proof.Proof.Gen.ReferenceIdeal.Run
import proofs.«108093_j38130719653971_2_alg».proof.Proof.Gen.ReferenceIdeal.Read
import proofs.«108093_j38130719653971_2_alg».proof.Proof.KValue
import proofs.«108093_j38130719653971_2_alg».proof.Proof.RefValue
import proofs.«108093_j38130719653971_2_alg».proof.Proof.Algebra
import proofs.«108093_j38130719653971_2_alg».proof.Proof.Finite
import Idealize.ShloMosaic.Adequacy
import Idealize.ShloMosaic.Init

set_option maxRecDepth 16384

noncomputable section

namespace Cert.Posterior

/-- Under real entries the direct spelling's arrays are the folded spelling's. -/
theorem postRG_eq {P : ShP.Idx → EReal} {Q : ShQ.Idx → EReal} (hP : ∀ i, ∃ r : ℝ, P i = (r : EReal))
    (hQ : ∀ i, ∃ r : ℝ, Q i = (r : EReal)) : postRG P Q = postG P Q :=
  funext fun j => postR_eq_post hP hQ (j 0) (j 1)
theorem confRG_eq {P : ShP.Idx → EReal} {Q : ShQ.Idx → EReal} (hP : ∀ i, ∃ r : ℝ, P i = (r : EReal))
    (hQ : ∀ i, ∃ r : ℝ, Q i = (r : EReal)) : confRG P Q = confG P Q :=
  funext fun j => confR_eq_conf hP hQ (j 0)
theorem entRG_eq {P : ShP.Idx → EReal} {Q : ShQ.Idx → EReal} (hP : ∀ i, ∃ r : ℝ, P i = (r : EReal))
    (hQ : ∀ i, ∃ r : ℝ, Q i = (r : EReal)) : entRG P Q = entG P Q :=
  funext fun j => entR_eq_ent hP hQ (j 0)

end Cert.Posterior

namespace Cert.Proof

open Idealize.ShloMosaic Idealize.SL.Sem Cert.Posterior

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2.2.2.2.2.2) (Cert.ReferenceIdeal.Value.run (F := Ideal) m ρ)

/-- The ideal pass rewrote no operation: there is nothing to restate. -/
theorem preserves : Cert.preserves_Kernel_KernelIdeal := trivial

/-- The reference's results, from arguments that are real, are the folded spelling's arrays of those arguments. -/
theorem ref_post (x0 : FVec Ideal Cert.ReferenceIdeal.S1024x2048 .f32) (x2 : FVec Ideal Cert.ReferenceIdeal.S8192x2048 .f32)
    (h0 : ∀ i, ∃ r : ℝ, x0 i = (r : EReal)) (h2 : ∀ i, ∃ r : ℝ, x2 i = (r : EReal)) :
    Cert.ReferenceIdeal.Read.val_main_v33 (F := Ideal) x0 x2 = postG x0 x2
    ∧ Cert.ReferenceIdeal.Read.val_main_v34 (F := Ideal) x0 x2 = confG x0 x2
    ∧ Cert.ReferenceIdeal.Read.val_main_v38 (F := Ideal) x0 x2 = entG x0 x2
    ∧ Cert.ReferenceIdeal.Read.val_main_v72 (F := Ideal) x0 x2 = postG x0 x2
    ∧ Cert.ReferenceIdeal.Read.val_main_v73 (F := Ideal) x0 x2 = confG x0 x2
    ∧ Cert.ReferenceIdeal.Read.val_main_v77 (F := Ideal) x0 x2 = entG x0 x2 :=
  ⟨(Cert.ReferenceIdeal.RefValue.v33_eq x0 x2).trans (postRG_eq h0 h2), (Cert.ReferenceIdeal.RefValue.v34_eq x0 x2).trans (confRG_eq h0 h2),
   (Cert.ReferenceIdeal.RefValue.v38_eq x0 x2).trans (entRG_eq h0 h2), (Cert.ReferenceIdeal.RefValue.v72_eq x0 x2).trans (postRG_eq h0 h2),
   (Cert.ReferenceIdeal.RefValue.v73_eq x0 x2).trans (confRG_eq h0 h2), (Cert.ReferenceIdeal.RefValue.v77_eq x0 x2).trans (entRG_eq h0 h2)⟩

/-- The reference's mask is the selection of its four per-target vectors. -/
theorem ref_mask (x0 x1 : FVec Ideal Cert.ReferenceIdeal.S1024x2048 .f32) (x2 x3 : FVec Ideal Cert.ReferenceIdeal.S8192x2048 .f32) :
    Cert.ReferenceIdeal.Read.val_main_v80 (F := Ideal) x0 x1 x2 x3
      = sel (Cert.ReferenceIdeal.Read.val_main_v38 (F := Ideal) x0 x2) (Cert.ReferenceIdeal.Read.val_main_v34 (F := Ideal) x0 x2)
          (Cert.ReferenceIdeal.Read.val_main_v77 (F := Ideal) x1 x3) (Cert.ReferenceIdeal.Read.val_main_v73 (F := Ideal) x1 x3) := rfl

theorem algebraic : Cert.algebraic_KernelIdeal_ReferenceIdeal := by
  intro m ρ m' ρ' hpre hagree
  refine ⟨_, _, _, _, _, _, _, Cert.KernelIdeal.KValue.run m ρ, ?_⟩
  refine (θ_run Cert.ReferenceIdeal.defs _ _).mono (fun r h c => ?_) (Cert.ReferenceIdeal.Value.run (F := Ideal) m' ρ')
  obtain ⟨h33, h34, h38, h72, h73, h77, h80, ha0, ha1, ha2, ha3⟩ := h c
  obtain ⟨e0, e1, e2, e3⟩ := hagree c
  obtain ⟨r0, r1, r2, r3⟩ := Cert.Proof.Finite.real_of_pre m hpre c
  obtain ⟨p33, p34, p38, -, -, -⟩ := ref_post _ _ r0 r2
  obtain ⟨-, -, -, p72, p73, p77⟩ := ref_post _ _ r1 r3
  refine ⟨?_, ?_, ?_, ?_, ?_, ?_, ?_, ha0, ha1, ha2, ha3⟩
  · refine (h33.trans (Cert.ReferenceIdeal.Read.val_main_v33_eq (F := Ideal) _ _)).trans ?_
    rw [e0, e2]; exact p33
  · refine (h34.trans (Cert.ReferenceIdeal.Read.val_main_v34_eq (F := Ideal) _ _)).trans ?_
    rw [e0, e2]; exact p34
  · refine (h38.trans (Cert.ReferenceIdeal.Read.val_main_v38_eq (F := Ideal) m' c)).trans ?_
    rw [e0, e2]; exact p38
  · refine (h72.trans (Cert.ReferenceIdeal.Read.val_main_v72_eq (F := Ideal) _ _)).trans ?_
    rw [e1, e3]; exact p72
  · refine (h73.trans (Cert.ReferenceIdeal.Read.val_main_v73_eq (F := Ideal) _ _)).trans ?_
    rw [e1, e3]; exact p73
  · refine (h77.trans (Cert.ReferenceIdeal.Read.val_main_v77_eq (F := Ideal) m' c)).trans ?_
    rw [e1, e3]; exact p77
  · refine (h80.trans (Cert.ReferenceIdeal.Read.val_main_v80_eq (F := Ideal) m' c)).trans ?_
    rw [e0, e1, e2, e3, ref_mask, p38, p34, p77, p73]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
